-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1048576x64 : Shape := ⟨2, ![1048576, 64]⟩
abbrev S1048576 : Shape := ⟨1, ![1048576]⟩
abbrev S65536 : Shape := ⟨1, ![65536]⟩
abbrev S100000x5 : Shape := ⟨2, ![100000, 5]⟩
abbrev S64x128 : Shape := ⟨2, ![64, 128]⟩
abbrev S128 : Shape := ⟨1, ![128]⟩
abbrev S128x128 : Shape := ⟨2, ![128, 128]⟩
abbrev S133x128 : Shape := ⟨2, ![133, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1048576x64 : S_.BroadcastsInDim S1048576x64 (![] : Fin 0 → Fin S1048576x64.rank)
  reducesTo_S1048576x64_S_d0_1 : S1048576x64.ReducesTo [0, 1] S_
  bcast_S_S100000x5 : S_.BroadcastsInDim S100000x5 (![] : Fin 0 → Fin S100000x5.rank)
  reducesTo_S100000x5_S_d0_1 : S100000x5.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S133x128 : S_.BroadcastsInDim S133x128 (![] : Fin 0 → Fin S133x128.rank)
  reducesTo_S133x128_S_d0_1 : S133x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S256x128 .f32) (main_arg14 : FVec F S128 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S133x128 .f32) (main_arg10 : FVec F S128 .f32) (main_arg11 : FVec F S128x128 .f32) (main_arg12 : FVec F S128 .f32) (main_arg13 : FVec F S256x128 .f32) (main_arg14 : FVec F S128 .f32) (main_arg15 : FVec F S128x1 .f32) (main_arg16 : FVec F S1 .f32) (main_v33 : IVec S_ 1) : IVec S_ 1 :=
  let main_v34 : FVec F S133x128 .f32 := Host.absf main_arg9
  let main_cst_12 : FVec F S_ .f32 := constant S_ .f32 0x7F800000#32
  let main_v35 : FVec F S133x128 .f32 := broadcastInDim S133x128 ![] bcast_S_S133x128 main_cst_12
  let main_v36 : IVec S133x128 1 := cmpf .olt main_v34 main_v35
  let main_c_13 : IVec S_ 1 := constantI S_ 1 1#1
  let main_v37 : IVec S_ 1 := (fun x v => Host.reduce IntOp.andi x v reducesTo_S133x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S133x128 .f32) (main_arg10 : FVec F S128 .f32) (main_arg11 : FVec F S128x128 .f32) (main_arg12 : FVec F S128 .f32) (main_arg13 : FVec F S256x128 .f32) (main_arg14 : FVec F S128 .f32) (main_arg15 : FVec F S128x1 .f32) (main_arg16 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S65536x64 .f32) (main_arg1 : FVec F S1048576x64 .f32) (main_arg2 : IVec S1048576 32) (main_arg3 : IVec S65536 32) (main_arg4 : FVec F S100000x5 .f32) (main_arg5 : FVec F S64x128 .f32) (main_arg6 : FVec F S128 .f32) (main_arg7 : FVec F S128x128 .f32) (main_arg8 : FVec F S128 .f32) (main_arg9 : FVec F S133x128 .f32) (main_arg10 : FVec F S128 .f32) (main_arg11 : FVec F S128x128 .f32) (main_arg12 : FVec F S128 .f32) (main_arg13 : FVec F S256x128 .f32) (main_arg14 : FVec F S128 .f32) (main_arg15 : FVec F S128x1 .f32) (main_arg16 : FVec F S1 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1048576x64 .f32 := Host.absf main_arg1
  let main_cst_0 : FVec F S_ .f32 := constant S_ .f32 0x7F800000#32
  let main_v5 : FVec F S1048576x64 .f32 := broadcastInDim S1048576x64 ![] bcast_S_S1048576x64 main_cst_0
  let main_v6 : IVec S1048576x64 1 := cmpf .olt main_v4 main_v5
  let main_c_1 : IVec S_ 1 := constantI S_ 1 1#1
  let main_v7 : IVec S_ 1 := (fun x v => Host.reduce IntOp.andi x v reducesTo_S1048576x64_S_d0_1 h_S_) main_v6 main_c_1
  let main_v8 : IVec S_ 1 := andi main_v3 main_v7
  let main_v9 : FVec F S100000x5 .f32 := Host.absf main_arg4
  let main_cst_2 : FVec F S_ .f32 := constant S_ .f32 0x7F800000#32
  let main_v10 : FVec F S100000x5 .f32 := broadcastInDim S100000x5 ![] bcast_S_S100000x5 main_cst_2
  let main_v11 : IVec S100000x5 1 := cmpf .olt main_v9 main_v10
  let main_c_3 : IVec S_ 1 := constantI S_ 1 1#1
  let main_v12 : IVec S_ 1 := (fun x v => Host.reduce IntOp.andi x v reducesTo_S100000x5_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S65536x64 : Shape := ⟨2, ![65536, 64]⟩
abbrev S1048576x64 : Shape := ⟨2, ![1048576, 64]⟩
abbrev S1048576 : Shape := ⟨1, ![1048576]⟩
abbrev S65536 : Shape := ⟨1, ![65536]⟩
abbrev S100000x5 : Shape := ⟨2, ![100000, 5]⟩
abbrev S64x128 : Shape := ⟨2, ![64, 128]⟩
abbrev S128 : Shape := ⟨1, ![128]⟩
abbrev S128x128 : Shape := ⟨2, ![128, 128]⟩
abbrev S133x128 : Shape := ⟨2, ![133, 128]⟩
abbrev S256x128 : Shape := ⟨2, ![256, 128]⟩
abbrev S128x1 : Shape := ⟨2, ![128, 1]⟩
abbrev S1 : Shape := ⟨1, ![1]⟩
abbrev S65536x128 : Shape := ⟨2, ![65536, 128]⟩
abbrev S4096x64 : Shape := ⟨2, ![4096, 64]⟩
abbrev S4096x128 : Shape := ⟨2, ![4096, 128]⟩
abbrev S1x128 : Shape := ⟨2, ![1, 128]⟩
abbrev S1048576x128 : Shape := ⟨2, ![1048576, 128]⟩
abbrev S8192x64 : Shape := ⟨2, ![8192, 64]⟩
abbrev S8192x128 : Shape := ⟨2, ![8192, 128]⟩
abbrev S_ : Shape := ⟨0, ![]⟩
abbrev S100000x128 : Shape := ⟨2, ![100000, 128]⟩
abbrev S1048576x1 : Shape := ⟨2, ![1048576, 1]⟩
abbrev S100000 : Shape := ⟨1, ![100000]⟩
abbrev S100000x1 : Shape := ⟨2, ![100000, 1]⟩
abbrev S100352x5 : Shape := ⟨2, ![100352, 5]⟩
abbrev S100352x128 : Shape := ⟨2, ![100352, 128]⟩
abbrev S2048x5 : Shape := ⟨2, ![2048, 5]⟩
abbrev S2048x128 : Shape := ⟨2, ![2048, 128]⟩
abbrev S2048x133 : Shape := ⟨2, ![2048, 133]⟩
abbrev S65536x1 : Shape := ⟨2, ![65536, 1]⟩
abbrev S4096x1 : Shape := ⟨2, ![4096, 1]⟩
abbrev S4096x256 : Shape := ⟨2, ![4096, 256]⟩
abbrev S1x1 : Shape := ⟨2, ![1, 1]⟩

abbrev nBuf : Space → Nat
  | .hbm => 54
  | .vmem => 36
  | .smem => 0
  | _ => 0

abbrev bufTy : (tb : Table) → Fin (tcTables nBuf tb) → BufTy
  | .hbm, ⟨0, _⟩ => ⟨S65536x64, .f32⟩
  | .hbm, ⟨1, _⟩ => ⟨S1048576x64, .f32⟩
  | .hbm, ⟨2, _⟩ => ⟨S1048576, .i32⟩
  | .hbm, ⟨3, _⟩ => ⟨S65536, .i32⟩
  | .hbm, ⟨4, _⟩ => ⟨S100000x5, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S133x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S65536x128, .f32⟩
  | .hbm, ⟨18, _⟩ => ⟨S1048576x128, .f32⟩
  | .hbm, ⟨19, _⟩ => ⟨S_, .f32⟩
  | .hbm, ⟨20, _⟩ => ⟨S100000x128, .f32⟩
  | .hbm, ⟨21, _⟩ => ⟨S1048576x1, .i32⟩
  | .hbm, ⟨22, _⟩ => ⟨S100000x128, .f32⟩
  | .hbm, ⟨23, _⟩ => ⟨S_, .f32⟩
  | .hbm, ⟨24, _⟩ => ⟨S1048576, .f32⟩
  | .hbm, ⟨25, _⟩ => ⟨S_, .f32⟩
  | .hbm, ⟨26, _⟩ => ⟨S100000, .f32⟩
  | .hbm, ⟨27, _⟩ => ⟨S1048576x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S_, .f32⟩
  | .hbm, ⟨37, _⟩ => ⟨S100352x5, .f32⟩
  | .hbm, ⟨38, _⟩ => ⟨S_, .i32⟩
  | .hbm, ⟨39, _⟩ => ⟨S_, .f32⟩
  | .hbm, ⟨40, _⟩ => ⟨S100352x128, .f32⟩
  | .hbm, ⟨41, _⟩ => ⟨S100352x128, .f32⟩
  | .hbm, ⟨42, _⟩ => ⟨S100000x128, .f32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S65536x1, .i32⟩
  | .hbm, ⟨51, _⟩ => ⟨S65536x128, .f32⟩
  | .hbm, ⟨52, _⟩ => ⟨S65536x1, .f32⟩
  | .hbm, ⟨53, _⟩ => ⟨S65536, .f32⟩
  | .local _ .vmem, ⟨0, _⟩ => ⟨S4096x64, .f32⟩
  | .local _ .vmem, ⟨1, _⟩ => ⟨S4096x64, .f32⟩
  | .local _ .vmem, ⟨2, _⟩ => ⟨S64x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S4096x128, .f32⟩
  | .local _ .vmem, ⟨7, _⟩ => ⟨S4096x128, .f32⟩
  | .local _ .vmem, ⟨8, _⟩ => ⟨S8192x64, .f32⟩
  | .local _ .vmem, ⟨9, _⟩ => ⟨S8192x64, .f32⟩
  | .local _ .vmem, ⟨10, _⟩ => ⟨S64x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S8192x128, .f32⟩
  | .local _ .vmem, ⟨15, _⟩ => ⟨S8192x128, .f32⟩
  | .local _ .vmem, ⟨16, _⟩ => ⟨S2048x5, .f32⟩
  | .local _ .vmem, ⟨17, _⟩ => ⟨S2048x5, .f32⟩
  | .local _ .vmem, ⟨18, _⟩ => ⟨S2048x128, .f32⟩
  | .local _ .vmem, ⟨19, _⟩ => ⟨S2048x128, .f32⟩
  | .local _ .vmem, ⟨20, _⟩ => ⟨S133x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S2048x128, .f32⟩
  | .local _ .vmem, ⟨25, _⟩ => ⟨S2048x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S256x128, .f32⟩
  | .local _ .vmem, ⟨31, _⟩ => ⟨S128, .f32⟩
  | .local _ .vmem, ⟨32, _⟩ => ⟨S128x1, .f32⟩
  | .local _ .vmem, ⟨33, _⟩ => ⟨S1, .f32⟩
  | .local _ .vmem, ⟨34, _⟩ => ⟨S4096x1, .f32⟩
  | .local _ .vmem, ⟨35, _⟩ => ⟨S4096x1, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_call0_v0 : Ref sig .tc := ⟨.hbm, 36, rfl⟩
abbrev main_v14 : Ref sig .tc := ⟨.hbm, 37, rfl⟩
abbrev main_c_3 : Ref sig .tc := ⟨.hbm, 38, rfl⟩
abbrev main_call1_v0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_v18 : Ref sig .tc := ⟨.hbm, 44, rfl⟩
abbrev main_v19 : Ref sig .tc := ⟨.hbm, 45, rfl⟩
abbrev main_c_5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S133x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4096x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  inb_S8192x64_S8192x64_0_0 : ∀ a, (![0, 0] : Fin 2 → Nat) a + S8192x64.size a ≤ S8192x64.size a
  h_S8192x64 : 0 < S8192x64.numel
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  bcast_S_S100000x128 : S_.BroadcastsInDim S100000x128 (![] : Fin 0 → Fin S100000x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  pads_S100000x5_S100352x5_03520_000 : S100000x5.Pads (![0, 0] : Fin 2 → Nat) ![352, 0] ![0, 0] S100352x5
  h_S_ : 0 < S_.numel
  pads_S100000x128_S100352x128_03520_000 : S100000x128.Pads (![0, 0] : Fin 2 → Nat) ![352, 0] ![0, 0] S100352x128
  inb_S2048x5_S2048x5_0_0 : ∀ a, (![0, 0] : Fin 2 → Nat) a + S2048x5.size a ≤ S2048x5.size a
  h_S2048x5 : 0 < S2048x5.numel
  shapeCasts_S2048x5_S2048x5 : S2048x5.ShapeCasts S2048x5
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  concatenates_S2048x5_S2048x128_S2048x133_d1 : Shape.Concatenates [S2048x5, S2048x128] S2048x133 1
  inb_S133x128_S133x128_0_0 : ∀ a, (![0, 0] : Fin 2 → Nat) a + S133x128.size a ≤ S133x128.size a
  h_S133x128 : 0 < S133x128.numel
  broadcasts_S1x128_S2048x128 : S1x128.Broadcasts S2048x128
  slices_S100352x128_S100000x128_0_0 : S100352x128.Slices ![0, 0] S100000x128
  bcast_S_S65536 : S_.BroadcastsInDim S65536 (![] : Fin 0 → Fin S65536.rank)
  bcast_S65536_S65536x1_0 : S65536.BroadcastsInDim S65536x1 (![0] : Fin 1 → Fin S65536x1.rank)
  shapeCasts_S4096x128_S4096x128 : S4096x128.ShapeCasts S4096x128
  concatenates_S4096x128_S4096x128_S4096x256_d1 : Shape.Concatenates [S4096x128, S4096x128] S4096x256 1
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S65536x1_S65536 : S65536x1.ShapeCasts S65536
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  scatter_S100000x128_S1048576x1_S1048576x128_1_0_0_1_wf : ScatterDims.WF S100000x128 S1048576x1 S1048576x128 [1] [0] [0] 1
  scatter_S100000_S1048576x1_S1048576_n_0_0_1_wf : ScatterDims.WF S100000 S1048576x1 S1048576 [] [0] [0] 1
  dot_S2048x133_S133x128_S2048x128_1_0_0_1_n_n_wf : DotDims.WF S2048x133 S133x128 S2048x128 [1] [0] [0] [1] [] []
  dot_S2048x128_S128x128_S2048x128_1_0_0_1_n_n_wf : DotDims.WF S2048x128 S128x128 S2048x128 [1] [0] [0] [1] [] []
  gather_S100000x128_S65536x1_S65536x128_1_0_n_n_0_1_1128_wf : GatherDims.WF S100000x128 S65536x1 S65536x128 [1] [0] [] [0] [] 1 ![1, 128]
  dot_S4096x256_S256x128_S4096x128_1_0_0_1_n_n_wf : DotDims.WF S4096x256 S256x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S65536x128.size a
  hwx0_5 : ∀ i : grid0.Coords, EltTy.bits .f32 = 32 ∨ (Rect.block (s := S65536x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1048576x64.size a
  hwx1_0 : ∀ i : grid1.Coords, EltTy.bits .f32 = 32 ∨ (Rect.block (s := S1048576x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x128.size a ≤ S1048576x128.size a
  hwx1_5 : ∀ i : grid1.Coords, EltTy.bits .f32 = 32 ∨ (Rect.block (s := S1048576x128) S8192x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x5.size a ≤ S100352x5.size a
  hwx2_0 : ∀ i : grid2.Coords, EltTy.bits .f32 = 32 ∨ (Rect.block (s := S100352x5) S2048x5.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S100352x128.size a
  hwx2_1 : ∀ i : grid2.Coords, EltTy.bits .f32 = 32 ∨ (Rect.block (s := S100352x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S133x128.size a ≤ S133x128.size a
  hwx2_2 : ∀ i : grid2.Coords, EltTy.bits .f32 = 32 ∨ (Rect.block (s := S133x128) S133x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x128.size a ≤ S100352x128.size a
  hwx2_6 : ∀ i : grid2.Coords, EltTy.bits .f32 = 32 ∨ (Rect.block (s := S100352x128) S2048x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S65536x128.size a
  hwx3_0 : ∀ i : grid3.Coords, EltTy.bits .f32 = 32 ∨ (Rect.block (s := S65536x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S65536x128.size a
  hwx3_1 : ∀ i : grid3.Coords, EltTy.bits .f32 = 32 ∨ (Rect.block (s := S65536x128) S4096x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x1.size a ≤ S128x1.size a
  hwx3_4 : ∀ i : grid3.Coords, EltTy.bits .f32 = 32 ∨ (Rect.block (s := S128x1) S128x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1.size a ≤ S1.size a
  hwx3_5 : ∀ i : grid3.Coords, EltTy.bits .f32 = 32 ∨ (Rect.block (s := S1) S1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4096x1.size a ≤ S65536x1.size a
  hwx3_6 : ∀ i : grid3.Coords, EltTy.bits .f32 = 32 ∨ (Rect.block (s := S65536x1) S4096x1.size (cc3_transform_6 i) (hinb3_6 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S100000x128_S1048576x1_S1048576x128_1_0_0_1 : ScatterDims S100000x128 S1048576x1 S1048576x128 where
  updateWindowDims := [1]
  insertedWindowDims := [0]
  scatterDimsToOperandDims := [0]
  indexVectorDim := 1
  wf := scatter_S100000x128_S1048576x1_S1048576x128_1_0_0_1_wf
def scatter_S100000_S1048576x1_S1048576_n_0_0_1 : ScatterDims S100000 S1048576x1 S1048576 where
  updateWindowDims := []
  insertedWindowDims := [0]
  scatterDimsToOperandDims := [0]
  indexVectorDim := 1
  wf := scatter_S100000_S1048576x1_S1048576_n_0_0_1_wf
def dot_S2048x133_S133x128_S2048x128_1_0_0_1_n_n : DotDims S2048x133 S133x128 S2048x128 where
  lhsContracting := [1]
  rhsContracting := [0]
  lhsNonContracting := [0]
  rhsNonContracting := [1]
  lhsBatch := []
  rhsBatch := []
  wf := dot_S2048x133_S133x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S100000x128_S65536x1_S65536x128_1_0_n_n_0_1_1128 : GatherDims S100000x128 S65536x1 S65536x128 where
  offsetDims := [1]
  collapsedSliceDims := [0]
  operandBatchingDims := []
  startIndicesBatchingDims := []
  startIndexMap := [0]
  indexVectorDim := 1
  sliceSizes := ![1, 128]
  wf := gather_S100000x128_S65536x1_S65536x128_1_0_n_n_0_1_1128_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S8192x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v14) S2048x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S133x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S2048x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v0) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S128x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg16) S1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v25) S4096x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S65536x64 : Shape := ⟨2, ![65536, 64]⟩
abbrev S1048576x64 : Shape := ⟨2, ![1048576, 64]⟩
abbrev S1048576 : Shape := ⟨1, ![1048576]⟩
abbrev S65536 : Shape := ⟨1, ![65536]⟩
abbrev S100000x5 : Shape := ⟨2, ![100000, 5]⟩
abbrev S64x128 : Shape := ⟨2, ![64, 128]⟩
abbrev S128 : Shape := ⟨1, ![128]⟩
abbrev S128x128 : Shape := ⟨2, ![128, 128]⟩
abbrev S133x128 : Shape := ⟨2, ![133, 128]⟩
abbrev S256x128 : Shape := ⟨2, ![256, 128]⟩
abbrev S128x1 : Shape := ⟨2, ![128, 1]⟩
abbrev S1 : Shape := ⟨1, ![1]⟩
abbrev S65536x128 : Shape := ⟨2, ![65536, 128]⟩
abbrev S1x128 : Shape := ⟨2, ![1, 128]⟩
abbrev S_ : Shape := ⟨0, ![]⟩
abbrev S1048576x128 : Shape := ⟨2, ![1048576, 128]⟩
abbrev S100000x128 : Shape := ⟨2, ![100000, 128]⟩
abbrev S1048576x1 : Shape := ⟨2, ![1048576, 1]⟩
abbrev S100000 : Shape := ⟨1, ![100000]⟩
abbrev S100000x1 : Shape := ⟨2, ![100000, 1]⟩
abbrev S100000x133 : Shape := ⟨2, ![100000, 133]⟩
abbrev S65536x1 : Shape := ⟨2, ![65536, 1]⟩
abbrev S65536x256 : Shape := ⟨2, ![65536, 256]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1048576x64, .f32⟩
  | .hbm, ⟨2, _⟩ => ⟨S1048576, .i32⟩
  | .hbm, ⟨3, _⟩ => ⟨S65536, .i32⟩
  | .hbm, ⟨4, _⟩ => ⟨S100000x5, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S133x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S65536x128, .f32⟩
  | .hbm, ⟨18, _⟩ => ⟨S1x128, .f32⟩
  | .hbm, ⟨19, _⟩ => ⟨S65536x128, .f32⟩
  | .hbm, ⟨20, _⟩ => ⟨S65536x128, .f32⟩
  | .hbm, ⟨21, _⟩ => ⟨S_, .f32⟩
  | .hbm, ⟨22, _⟩ => ⟨S65536x128, .f32⟩
  | .hbm, ⟨23, _⟩ => ⟨S65536x128, .f32⟩
  | .hbm, ⟨24, _⟩ => ⟨S65536x128, .f32⟩
  | .hbm, ⟨25, _⟩ => ⟨S1x128, .f32⟩
  | .hbm, ⟨26, _⟩ => ⟨S65536x128, .f32⟩
  | .hbm, ⟨27, _⟩ => ⟨S65536x128, .f32⟩
  | .hbm, ⟨28, _⟩ => ⟨S_, .f32⟩
  | .hbm, ⟨29, _⟩ => ⟨S65536x128, .f32⟩
  | .hbm, ⟨30, _⟩ => ⟨S65536x128, .f32⟩
  | .hbm, ⟨31, _⟩ => ⟨S1048576x128, .f32⟩
  | .hbm, ⟨32, _⟩ => ⟨S1x128, .f32⟩
  | .hbm, ⟨33, _⟩ => ⟨S1048576x128, .f32⟩
  | .hbm, ⟨34, _⟩ => ⟨S1048576x128, .f32⟩
  | .hbm, ⟨35, _⟩ => ⟨S_, .f32⟩
  | .hbm, ⟨36, _⟩ => ⟨S1048576x128, .f32⟩
  | .hbm, ⟨37, _⟩ => ⟨S1048576x128, .f32⟩
  | .hbm, ⟨38, _⟩ => ⟨S1048576x128, .f32⟩
  | .hbm, ⟨39, _⟩ => ⟨S1x128, .f32⟩
  | .hbm, ⟨40, _⟩ => ⟨S1048576x128, .f32⟩
  | .hbm, ⟨41, _⟩ => ⟨S1048576x128, .f32⟩
  | .hbm, ⟨42, _⟩ => ⟨S_, .f32⟩
  | .hbm, ⟨43, _⟩ => ⟨S1048576x128, .f32⟩
  | .hbm, ⟨44, _⟩ => ⟨S1048576x128, .f32⟩
  | .hbm, ⟨45, _⟩ => ⟨S_, .f32⟩
  | .hbm, ⟨46, _⟩ => ⟨S100000x128, .f32⟩
  | .hbm, ⟨47, _⟩ => ⟨S1048576x1, .i32⟩
  | .hbm, ⟨48, _⟩ => ⟨S100000x128, .f32⟩
  | .hbm, ⟨49, _⟩ => ⟨S_, .f32⟩
  | .hbm, ⟨50, _⟩ => ⟨S1048576, .f32⟩
  | .hbm, ⟨51, _⟩ => ⟨S_, .f32⟩
  | .hbm, ⟨52, _⟩ => ⟨S100000, .f32⟩
  | .hbm, ⟨53, _⟩ => ⟨S1048576x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x133, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S65536, .i32⟩
  | .hbm, ⟨78, _⟩ => ⟨S65536, .i1⟩
  | .hbm, ⟨79, _⟩ => ⟨S_, .i32⟩
  | .hbm, ⟨80, _⟩ => ⟨S65536, .i32⟩
  | .hbm, ⟨81, _⟩ => ⟨S65536, .i32⟩
  | .hbm, ⟨82, _⟩ => ⟨S65536, .i32⟩
  | .hbm, ⟨83, _⟩ => ⟨S65536x1, .i32⟩
  | .hbm, ⟨84, _⟩ => ⟨S65536x128, .f32⟩
  | .hbm, ⟨85, _⟩ => ⟨S65536x256, .f32⟩
  | .hbm, ⟨86, _⟩ => ⟨S65536x128, .f32⟩
  | .hbm, ⟨87, _⟩ => ⟨S1x128, .f32⟩
  | .hbm, ⟨88, _⟩ => ⟨S65536x128, .f32⟩
  | .hbm, ⟨89, _⟩ => ⟨S65536x128, .f32⟩
  | .hbm, ⟨90, _⟩ => ⟨S_, .f32⟩
  | .hbm, ⟨91, _⟩ => ⟨S65536x128, .f32⟩
  | .hbm, ⟨92, _⟩ => ⟨S65536x128, .f32⟩
  | .hbm, ⟨93, _⟩ => ⟨S65536x1, .f32⟩
  | .hbm, ⟨94, _⟩ => ⟨S1x1, .f32⟩
  | .hbm, ⟨95, _⟩ => ⟨S65536x1, .f32⟩
  | .hbm, ⟨96, _⟩ => ⟨S65536x1, .f32⟩
  | .hbm, ⟨97, _⟩ => ⟨S65536, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call2_cst : Ref sig .tc := ⟨.hbm, 35, rfl⟩
abbrev main_call2_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call3_cst : Ref sig .tc := ⟨.hbm, 42, rfl⟩
abbrev main_call3_v0 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_0 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call4_cst : Ref sig .tc := ⟨.hbm, 66, rfl⟩
abbrev main_call4_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_call5_cst : Ref sig .tc := ⟨.hbm, 73, rfl⟩
abbrev main_call5_v0 : Ref sig .tc := ⟨.hbm, 74, rfl⟩
abbrev main_v42 : Ref sig .tc := ⟨.hbm, 75, rfl⟩
abbrev main_c : Ref sig .tc := ⟨.hbm, 76, rfl⟩
abbrev main_v43 : Ref sig .tc := ⟨.hbm, 77, rfl⟩
abbrev main_v44 : Ref sig .tc := ⟨.hbm, 78, rfl⟩
abbrev main_c_3 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call6_cst : Ref sig .tc := ⟨.hbm, 90, rfl⟩
abbrev main_call6_v0 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S_S100000x128 : S_.BroadcastsInDim S100000x128 (![] : Fin 0 → Fin S100000x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x5_S100000x128_S100000x133_d1 : Shape.Concatenates [S100000x5, S100000x128] S100000x133 1
  bcast_S1x128_S100000x128_0_1 : S1x128.BroadcastsInDim S100000x128 (![0, 1] : Fin 2 → Fin S100000x128.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x128_S65536x128_S65536x256_d1 : Shape.Concatenates [S65536x128, S65536x128] S65536x256 1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S65536 : S65536x1.ShapeCasts S65536
  dot_S65536x64_S64x128_S65536x128_1_0_0_1_n_n_wf : DotDims.WF S65536x64 S64x128 S65536x128 [1] [0] [0] [1] [] []
  dot_S65536x128_S128x128_S65536x128_1_0_0_1_n_n_wf : DotDims.WF S65536x128 S128x128 S65536x128 [1] [0] [0] [1] [] []
  dot_S1048576x64_S64x128_S1048576x128_1_0_0_1_n_n_wf : DotDims.WF S1048576x64 S64x128 S1048576x128 [1] [0] [0] [1] [] []
  dot_S1048576x128_S128x128_S1048576x128_1_0_0_1_n_n_wf : DotDims.WF S1048576x128 S128x128 S1048576x128 [1] [0] [0] [1] [] []
  scatter_S100000x128_S1048576x1_S1048576x128_1_0_0_1_wf : ScatterDims.WF S100000x128 S1048576x1 S1048576x128 [1] [0] [0] 1
  scatter_S100000_S1048576x1_S1048576_n_0_0_1_wf : ScatterDims.WF S100000 S1048576x1 S1048576 [] [0] [0] 1
  dot_S100000x133_S133x128_S100000x128_1_0_0_1_n_n_wf : DotDims.WF S100000x133 S133x128 S100000x128 [1] [0] [0] [1] [] []
  dot_S100000x128_S128x128_S100000x128_1_0_0_1_n_n_wf : DotDims.WF S100000x128 S128x128 S100000x128 [1] [0] [0] [1] [] []
  gather_S100000x128_S65536x1_S65536x128_1_0_n_n_0_1_1128_wf : GatherDims.WF S100000x128 S65536x1 S65536x128 [1] [0] [] [0] [] 1 ![1, 128]
  dot_S65536x256_S256x128_S65536x128_1_0_0_1_n_n_wf : DotDims.WF S65536x256 S256x128 S65536x128 [1] [0] [0] [1] [] []
  dot_S65536x128_S128x1_S65536x1_1_0_0_1_n_n_wf : DotDims.WF S65536x128 S128x1 S65536x1 [1] [0] [0] [1] [] []

variable [Facts₀]

def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S1048576x64_S64x128_S1048576x128_1_0_0_1_n_n : DotDims S1048576x64 S64x128 S1048576x128 where
  lhsContracting := [1]
  rhsContracting := [0]
  lhsNonContracting := [0]
  rhsNonContracting := [1]
  lhsBatch := []
  rhsBatch := []
  wf := dot_S1048576x64_S64x128_S1048576x128_1_0_0_1_n_n_wf
def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def scatter_S100000x128_S1048576x1_S1048576x128_1_0_0_1 : ScatterDims S100000x128 S1048576x1 S1048576x128 where
  updateWindowDims := [1]
  insertedWindowDims := [0]
  scatterDimsToOperandDims := [0]
  indexVectorDim := 1
  wf := scatter_S100000x128_S1048576x1_S1048576x128_1_0_0_1_wf
def scatter_S100000_S1048576x1_S1048576_n_0_0_1 : ScatterDims S100000 S1048576x1 S1048576 where
  updateWindowDims := []
  insertedWindowDims := [0]
  scatterDimsToOperandDims := [0]
  indexVectorDim := 1
  wf := scatter_S100000_S1048576x1_S1048576_n_0_0_1_wf
def dot_S100000x133_S133x128_S100000x128_1_0_0_1_n_n : DotDims S100000x133 S133x128 S100000x128 where
  lhsContracting := [1]
  rhsContracting := [0]
  lhsNonContracting := [0]
  rhsNonContracting := [1]
  lhsBatch := []
  rhsBatch := []
  wf := dot_S100000x133_S133x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S65536x1_S65536x128_1_0_n_n_0_1_1128 : GatherDims S100000x128 S65536x1 S65536x128 where
  offsetDims := [1]
  collapsedSliceDims := [0]
  operandBatchingDims := []
  startIndicesBatchingDims := []
  startIndexMap := [0]
  indexVectorDim := 1
  sliceSizes := ![1, 128]
  wf := gather_S100000x128_S65536x1_S65536x128_1_0_n_n_0_1_1128_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x1_S65536x1_1_0_0_1_n_n : DotDims S65536x128 S128x1 S65536x1 where
  lhsContracting := [1]
  rhsContracting := [0]
  lhsNonContracting := [0]
  rhsNonContracting := [1]
  lhsBatch := []
  rhsBatch := []
  wf := dot_S65536x128_S128x1_S65536x1_1_0_0_1_n_n_wf

class Facts : Prop extends Facts₀ where

variable [Facts]
-- ==== Proof.RunMain.lean ====
/-
  The idealized kernel's run with its RESULT named. Every weakly fair execution of the program terminates, nothing
  faulting; in the final state the result buffer holds what the last boundary of the program's segments holds there
  (the contents after the closing host operations, folded through the four regions and the host stretches between
  them), and every argument array is as launched.
-/
import proofs.«129727_j18588618457111_1_alg».proof.Proof.Gen.KernelIdeal.Frame

set_option maxRecDepth 16384

noncomputable section

namespace Cert.KernelIdeal.RunMain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's ten segments, the last thread state read against the final state; the
    result buffer is one of the unscoped buffers the last boundary accounts for, so it holds that boundary's contents. -/
theorem run_main : θ_run defs (onTc (τ := τ) (main (F := F))) ⟨m, fun _ => 0, ρ⟩ (fun r => ∀ c : Dev nD,
      r.2.mem ((c.tc : Thread nD τ).loc main_v26) = W10 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v26 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KernelIdeal.RunMain

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.LibLayer.lean ====
/-
  A dense layer as ONE whole-array function. For an input x of a rows and f columns, a weight w of f rows and d
  columns and a bias b of d entries,
      lin x w b (p, q) = (sum over k of x (p, k) * w (k, q)) + b (q),
  and linRelu x w b (p, q) is the larger of that and zero. Both are stated on the extended reals, for any extents.

  Two spellings compute them. A kernel body narrows x and w to bf16 (the identity on exact values), multiplies them on
  the matrix unit into a zero accumulator, adds the bias laid out as one row and spread over the rows, and takes the
  maximum with a splat zero. A host program takes the general product of the two matrices, adds the bias broadcast
  through a one-row matrix, and takes the maximum with a broadcast zero literal. Each spelling IS lin (or linRelu),
  as whole arrays.

  Entry (p, q) depends on row p of x only: two inputs that agree on a row give layers that agree on that row.
-/
import Idealize.ShloMosaic.Lib.ValueIdx
import Idealize.ShloMosaic.Lib.Pipeline.Value
import Idealize.ShloMosaic.Lib.ValueLayout
import Idealize.ShloMosaic.PureOps.Ideal.Laws
import proofs.«129727_j18588618457111_1_alg».proof.Proof.LibDot
import proofs.«129727_j18588618457111_1_alg».proof.Proof.LibHostRead

noncomputable section

namespace Cert.LibLayer

open Idealize.ShloMosaic Idealize.ShloMosaic.ValueIdx
open scoped BigOperators

variable {a f d : Nat}

/-- The affine layer: entry (p, q) is the sum over k of x (p, k) * w (k, q), plus b (q). -/
def lin (x : FVec Ideal ⟨2, ![a, f]⟩ .f32) (w : FVec Ideal ⟨2, ![f, d]⟩ .f32) (b : FVec Ideal ⟨1, ![d]⟩ .f32) :
    FVec Ideal ⟨2, ![a, d]⟩ .f32 :=
  fun i => (∑ k : Fin f, x (ix2 (i 0) k) * w (ix2 k (i 1))) + b (ix1 (i 1))

/-- The rectified layer: the larger of the affine layer's entry and zero. -/
def linRelu (x : FVec Ideal ⟨2, ![a, f]⟩ .f32) (w : FVec Ideal ⟨2, ![f, d]⟩ .f32) (b : FVec Ideal ⟨1, ![d]⟩ .f32) :
    FVec Ideal ⟨2, ![a, d]⟩ .f32 :=
  fun i => max (lin x w b i) (Ideal.ofBits .f32 0x00000000#32)

theorem lin_apply (x : FVec Ideal ⟨2, ![a, f]⟩ .f32) (w : FVec Ideal ⟨2, ![f, d]⟩ .f32) (b : FVec Ideal ⟨1, ![d]⟩ .f32)
    (p : Fin a) (q : Fin d) : lin x w b (ix2 p q) = (∑ k : Fin f, x (ix2 p k) * w (ix2 k q)) + b (ix1 q) := rfl

theorem linRelu_apply (x : FVec Ideal ⟨2, ![a, f]⟩ .f32) (w : FVec Ideal ⟨2, ![f, d]⟩ .f32) (b : FVec Ideal ⟨1, ![d]⟩ .f32)
    (p : Fin a) (q : Fin d) : linRelu x w b (ix2 p q) = max (lin x w b (ix2 p q)) (Ideal.ofBits .f32 0x00000000#32) := rfl

/-- Row p of the layer of x is row p' of the layer of x' when row p of x is row p' of x'. -/
theorem lin_row_congr {a' : Nat} (x : FVec Ideal ⟨2, ![a, f]⟩ .f32) (x' : FVec Ideal ⟨2, ![a', f]⟩ .f32)
    (w : FVec Ideal ⟨2, ![f, d]⟩ .f32) (b : FVec Ideal ⟨1, ![d]⟩ .f32) (p : Fin a) (p' : Fin a')
    (h : ∀ k : Fin f, x (ix2 p k) = x' (ix2 p' k)) (q : Fin d) :
    lin x w b (ix2 p q) = lin x' w b (ix2 p' q) := by
  rw [lin_apply, lin_apply]
  exact congrArg (· + b (ix1 q)) (Finset.sum_congr rfl fun k _ => by rw [h k])

theorem linRelu_row_congr {a' : Nat} (x : FVec Ideal ⟨2, ![a, f]⟩ .f32) (x' : FVec Ideal ⟨2, ![a', f]⟩ .f32)
    (w : FVec Ideal ⟨2, ![f, d]⟩ .f32) (b : FVec Ideal ⟨1, ![d]⟩ .f32) (p : Fin a) (p' : Fin a')
    (h : ∀ k : Fin f, x (ix2 p k) = x' (ix2 p' k)) (q : Fin d) :
    linRelu x w b (ix2 p q) = linRelu x' w b (ix2 p' q) := by
  rw [linRelu_apply, linRelu_apply, lin_row_congr x x' w b p p' h q]

/-- The kernel's spelling of the affine layer. -/
theorem kernel_lin (wf : DotDims.WF ⟨2, ![a, f]⟩ ⟨2, ![f, d]⟩ ⟨2, ![a, d]⟩ [1] [0] [0] [1] [] [])
    (dd : DotDims ⟨2, ![a, f]⟩ ⟨2, ![f, d]⟩ ⟨2, ![a, d]⟩) (hdd : dd = LibDot.dims wf)
    (prec : Option ContractPrecision)
    (x : FVec Ideal ⟨2, ![a, f]⟩ .f32) (w : FVec Ideal ⟨2, ![f, d]⟩ .f32) (b : FVec Ideal ⟨1, ![d]⟩ .f32)
    (h1 : FTy.bf16.bits < FTy.f32.bits) (h2 : FTy.bf16.bits < FTy.f32.bits)
    (hs : (⟨1, ![d]⟩ : Shape).ShapeCasts ⟨2, ![1, d]⟩) (hb : (⟨2, ![1, d]⟩ : Shape).Broadcasts ⟨2, ![a, d]⟩) :
    addf (matmul dd prec (truncf .bf16 x h1) (truncf .bf16 w h2) (constant ⟨2, ![a, d]⟩ .f32 0x00000000#32))
        (broadcastTo ⟨2, ![a, d]⟩ (shapeCast ⟨2, ![1, d]⟩ b hs) hb)
      = lin x w b := by
  subst hdd
  funext i
  obtain ⟨p, q, rfl⟩ : ∃ (p : Fin a) (q : Fin d), i = ix2 p q := ⟨i 0, i 1, eq_ix2 i⟩
  rw [addf_apply, LibDot.matmul_zero_apply wf prec, broadcastTo_1b_ab_apply, shapeCast_a_1a_apply, lin_apply]
  rfl

/-- The kernel's spelling of the rectified layer. -/
theorem kernel_linRelu (wf : DotDims.WF ⟨2, ![a, f]⟩ ⟨2, ![f, d]⟩ ⟨2, ![a, d]⟩ [1] [0] [0] [1] [] [])
    (dd : DotDims ⟨2, ![a, f]⟩ ⟨2, ![f, d]⟩ ⟨2, ![a, d]⟩) (hdd : dd = LibDot.dims wf)
    (prec : Option ContractPrecision)
    (x : FVec Ideal ⟨2, ![a, f]⟩ .f32) (w : FVec Ideal ⟨2, ![f, d]⟩ .f32) (b : FVec Ideal ⟨1, ![d]⟩ .f32)
    (h1 : FTy.bf16.bits < FTy.f32.bits) (h2 : FTy.bf16.bits < FTy.f32.bits)
    (hs : (⟨1, ![d]⟩ : Shape).ShapeCasts ⟨2, ![1, d]⟩) (hb : (⟨2, ![1, d]⟩ : Shape).Broadcasts ⟨2, ![a, d]⟩) :
    maximumf (addf (matmul dd prec (truncf .bf16 x h1) (truncf .bf16 w h2) (constant ⟨2, ![a, d]⟩ .f32 0x00000000#32))
        (broadcastTo ⟨2, ![a, d]⟩ (shapeCast ⟨2, ![1, d]⟩ b hs) hb))
        (broadcast ⟨2, ![a, d]⟩ (Scalar.ofBits (F := Ideal) .f32 0x00000000#32))
      = linRelu x w b := by
  rw [kernel_lin wf dd hdd prec x w b h1 h2 hs hb]
  rfl

/-- The host's spelling of the affine layer. -/
theorem host_lin (wf : DotDims.WF ⟨2, ![a, f]⟩ ⟨2, ![f, d]⟩ ⟨2, ![a, d]⟩ [1] [0] [0] [1] [] [])
    (dd : DotDims ⟨2, ![a, f]⟩ ⟨2, ![f, d]⟩ ⟨2, ![a, d]⟩) (hdd : dd = LibDot.dims wf)
    (prec : Option ContractPrecision)
    (x : FVec Ideal ⟨2, ![a, f]⟩ .f32) (w : FVec Ideal ⟨2, ![f, d]⟩ .f32) (b : FVec Ideal ⟨1, ![d]⟩ .f32)
    (h1 : (⟨1, ![d]⟩ : Shape).BroadcastsInDim ⟨2, ![1, d]⟩ (![1] : Fin 1 → Fin 2))
    (h2 : (⟨2, ![1, d]⟩ : Shape).BroadcastsInDim ⟨2, ![a, d]⟩ (![0, 1] : Fin 2 → Fin 2)) :
    addf (Host.dotGeneral dd prec x w)
        (broadcastInDim ⟨2, ![a, d]⟩ (![0, 1] : Fin 2 → Fin 2) h2 (broadcastInDim ⟨2, ![1, d]⟩ (![1] : Fin 1 → Fin 2) h1 b))
      = lin x w b := by
  subst hdd
  funext i
  obtain ⟨p, q, rfl⟩ : ∃ (p : Fin a) (q : Fin d), i = ix2 p q := ⟨i 0, i 1, eq_ix2 i⟩
  rw [addf_apply, LibDot.dotGeneral_apply wf prec, LibHostRead.bcastRow_apply, lin_apply]

/-- The host's spelling of the rectified layer. -/
theorem host_linRelu (wf : DotDims.WF ⟨2, ![a, f]⟩ ⟨2, ![f, d]⟩ ⟨2, ![a, d]⟩ [1] [0] [0] [1] [] [])
    (dd : DotDims ⟨2, ![a, f]⟩ ⟨2, ![f, d]⟩ ⟨2, ![a, d]⟩) (hdd : dd = LibDot.dims wf)
    (prec : Option ContractPrecision)
    (x : FVec Ideal ⟨2, ![a, f]⟩ .f32) (w : FVec Ideal ⟨2, ![f, d]⟩ .f32) (b : FVec Ideal ⟨1, ![d]⟩ .f32)
    (h1 : (⟨1, ![d]⟩ : Shape).BroadcastsInDim ⟨2, ![1, d]⟩ (![1] : Fin 1 → Fin 2))
    (h2 : (⟨2, ![1, d]⟩ : Shape).BroadcastsInDim ⟨2, ![a, d]⟩ (![0, 1] : Fin 2 → Fin 2))
    (h0 : (⟨0, ![]⟩ : Shape).BroadcastsInDim ⟨2, ![a, d]⟩ (![] : Fin 0 → Fin 2)) :
    maximumf (addf (Host.dotGeneral dd prec x w)
        (broadcastInDim ⟨2, ![a, d]⟩ (![0, 1] : Fin 2 → Fin 2) h2 (broadcastInDim ⟨2, ![1, d]⟩ (![1] : Fin 1 → Fin 2) h1 b)))
        (broadcastInDim ⟨2, ![a, d]⟩ (![] : Fin 0 → Fin 2) h0 (constant (F := Ideal) ⟨0, ![]⟩ .f32 0x00000000#32))
      = linRelu x w b := by
  rw [host_lin wf dd hdd prec x w b h1 h2]
  rfl

end Cert.LibLayer
-- ==== Proof.RefNet.lean ====
/-
  The reference program's result as a composition of dense layers.

  The reference computes, with host operations only: a two-layer rectified encoder of the target rows and of the
  history rows (the same weights), a mean of the encoded history rows per card (a scatter-add of the rows, a
  scatter-add of ones, the quotient by the larger of the count and one), a two-layer rectified encoder of the card
  features joined with that mean along the columns, a gather of the encoded cards by (wrapped) index, and a head of
  one rectified and one affine layer on the encoded target rows joined with the gathered rows along the columns.

  Each dense layer there is spelt as a general matrix product plus a bias broadcast through a one-row matrix
  (and a maximum with a broadcast zero literal): that spelling is the layer `LibLayer.lin` (`LibLayer.linRelu`) as a
  whole array. `refNet` is the reference's term with every layer replaced by it; `res_eq` says the reference's result
  buffer holds `refNet` of the seventeen arguments.
-/
import proofs.«129727_j18588618457111_1_alg».proof.Proof.Gen.ReferenceIdeal.Run
import proofs.«129727_j18588618457111_1_alg».proof.Proof.LibLayer

noncomputable section

namespace Cert.ReferenceIdeal.RefNet

open Cert.ReferenceIdeal Cert.ReferenceIdeal.Gen Idealize.ShloMosaic Idealize.ShloMosaic.TcCoe Idealize.SL.Sem Idealize.ShloMosaic.StableHlo

/-- The per-card mean of the rows of h: the scatter-add of the rows at the card indices x2, divided by the larger of
    the number of rows at each card and one. -/
def agg (h : FVec Ideal S1048576x128 .f32) (x2 : IVec S1048576 32) : FVec Ideal S100000x128 .f32 :=
  Host.divf (F := Ideal) (Host.scatterAdd (F := Ideal) scatter_S100000x128_S1048576x1_S1048576x128_1_0_0_1 (broadcastInDim S100000x128 ![] bcast_S_S100000x128 (constant (F := Ideal) S_ .f32 0x00000000#32)) (broadcastInDim S1048576x1 ![0] bcast_S1048576_S1048576x1_0 x2) h) (broadcastInDim S100000x128 ![0, 1] bcast_S100000x1_S100000x128_0_1 (broadcastInDim S100000x1 ![0] bcast_S100000_S100000x1_0 (maximumf (F := Ideal) (Host.scatterAdd (F := Ideal) scatter_S100000_S1048576x1_S1048576_n_0_0_1 (broadcastInDim S100000 ![] bcast_S_S100000 (constant (F := Ideal) S_ .f32 0x00000000#32)) (broadcastInDim S1048576x1 ![0] bcast_S1048576_S1048576x1_0 x2) (broadcastInDim S1048576 ![] bcast_S_S1048576 (constant (F := Ideal) S_ .f32 0x3F800000#32))) (broadcastInDim S100000 ![] bcast_S_S100000 (constant (F := Ideal) S_ .f32 0x3F800000#32)))))

/-- The index column: a negative index has 100000 added to it. -/
def idx (x3 : IVec S65536 32) : IVec S65536x1 32 :=
  broadcastInDim S65536x1 ![0] bcast_S65536_S65536x1_0 (select (cmpi .slt x3 (broadcastInDim S65536 ![] bcast_S_S65536 (constantI S_ 32 0#32))) (addi x3 (broadcastInDim S65536 ![] bcast_S_S65536 (constantI S_ 32 100000#32))) x3)

/-- The reference's result, its dense layers as whole-array layers. -/
def refNet (x0 : FVec Ideal S65536x64 .f32) (x1 : FVec Ideal S1048576x64 .f32) (x2 : IVec S1048576 32) (x3 : IVec S65536 32)
    (x4 : FVec Ideal S100000x5 .f32) (x5 : FVec Ideal S64x128 .f32) (x6 : FVec Ideal S128 .f32) (x7 : FVec Ideal S128x128 .f32)
    (x8 : FVec Ideal S128 .f32) (x9 : FVec Ideal S133x128 .f32) (x10 : FVec Ideal S128 .f32) (x11 : FVec Ideal S128x128 .f32)
    (x12 : FVec Ideal S128 .f32) (x13 : FVec Ideal S256x128 .f32) (x14 : FVec Ideal S128 .f32) (x15 : FVec Ideal S128x1 .f32)
    (x16 : FVec Ideal S1 .f32) : FVec Ideal S65536 .f32 :=
  shapeCast S65536 (LibLayer.lin (LibLayer.linRelu (concatenate S65536x256 1 [⟨S65536x128, (LibLayer.linRelu (LibLayer.linRelu x0 x5 x6) x7 x8)⟩, ⟨S65536x128, (Host.gather gather_S100000x128_S65536x1_S65536x128_1_0_n_n_0_1_1128 (LibLayer.linRelu (LibLayer.linRelu (concatenate S100000x133 1 [⟨S100000x5, x4⟩, ⟨S100000x128, (agg (LibLayer.linRelu (LibLayer.linRelu x1 x5 x6) x7 x8) x2)⟩] concatenates_S100000x5_S100000x128_S100000x133_d1) x9 x10) x11 x12) (idx x3))⟩] concatenates_S65536x128_S65536x128_S65536x256_d1) x13 x14) x15 x16) shapeCasts_S65536x1_S65536

/-- The host's rectified layer from 65536 rows of 64 columns to 128 columns is the rectified layer. -/
theorem layerA (x : FVec Ideal S65536x64 .f32) (w : FVec Ideal S64x128 .f32) (b : FVec Ideal S128 .f32) :
    (maximumf (F := Ideal) (addf (F := Ideal) (Host.dotGeneral (F := Ideal) dot_S65536x64_S64x128_S65536x128_1_0_0_1_n_n none x w) (broadcastInDim S65536x128 ![0, 1] bcast_S1x128_S65536x128_0_1 (broadcastInDim S1x128 ![1] bcast_S128_S1x128_1 b))) (broadcastInDim S65536x128 ![] bcast_S_S65536x128 (constant (F := Ideal) S_ .f32 0x00000000#32))) = LibLayer.linRelu x w b :=
  LibLayer.host_linRelu (a := 65536) (f := 64) (d := 128) Gen.dot_S65536x64_S64x128_S65536x128_1_0_0_1_n_n_wf dot_S65536x64_S64x128_S65536x128_1_0_0_1_n_n rfl none x w b
    bcast_S128_S1x128_1 bcast_S1x128_S65536x128_0_1 bcast_S_S65536x128

/-- The host's rectified layer from 65536 rows of 128 columns to 128 columns is the rectified layer. -/
theorem layerB (x : FVec Ideal S65536x128 .f32) (w : FVec Ideal S128x128 .f32) (b : FVec Ideal S128 .f32) :
    (maximumf (F := Ideal) (addf (F := Ideal) (Host.dotGeneral (F := Ideal) dot_S65536x128_S128x128_S65536x128_1_0_0_1_n_n none x w) (broadcastInDim S65536x128 ![0, 1] bcast_S1x128_S65536x128_0_1 (broadcastInDim S1x128 ![1] bcast_S128_S1x128_1 b))) (broadcastInDim S65536x128 ![] bcast_S_S65536x128 (constant (F := Ideal) S_ .f32 0x00000000#32))) = LibLayer.linRelu x w b :=
  LibLayer.host_linRelu (a := 65536) (f := 128) (d := 128) Gen.dot_S65536x128_S128x128_S65536x128_1_0_0_1_n_n_wf dot_S65536x128_S128x128_S65536x128_1_0_0_1_n_n rfl none x w b
    bcast_S128_S1x128_1 bcast_S1x128_S65536x128_0_1 bcast_S_S65536x128

/-- The host's rectified layer from 1048576 rows of 64 columns to 128 columns is the rectified layer. -/
theorem layerC (x : FVec Ideal S1048576x64 .f32) (w : FVec Ideal S64x128 .f32) (b : FVec Ideal S128 .f32) :
    (maximumf (F := Ideal) (addf (F := Ideal) (Host.dotGeneral (F := Ideal) dot_S1048576x64_S64x128_S1048576x128_1_0_0_1_n_n none x w) (broadcastInDim S1048576x128 ![0, 1] bcast_S1x128_S1048576x128_0_1 (broadcastInDim S1x128 ![1] bcast_S128_S1x128_1 b))) (broadcastInDim S1048576x128 ![] bcast_S_S1048576x128 (constant (F := Ideal) S_ .f32 0x00000000#32))) = LibLayer.linRelu x w b :=
  LibLayer.host_linRelu (a := 1048576) (f := 64) (d := 128) Gen.dot_S1048576x64_S64x128_S1048576x128_1_0_0_1_n_n_wf dot_S1048576x64_S64x128_S1048576x128_1_0_0_1_n_n rfl none x w b
    bcast_S128_S1x128_1 bcast_S1x128_S1048576x128_0_1 bcast_S_S1048576x128

/-- The host's rectified layer from 1048576 rows of 128 columns to 128 columns is the rectified layer. -/
theorem layerD (x : FVec Ideal S1048576x128 .f32) (w : FVec Ideal S128x128 .f32) (b : FVec Ideal S128 .f32) :
    (maximumf (F := Ideal) (addf (F := Ideal) (Host.dotGeneral (F := Ideal) dot_S1048576x128_S128x128_S1048576x128_1_0_0_1_n_n none x w) (broadcastInDim S1048576x128 ![0, 1] bcast_S1x128_S1048576x128_0_1 (broadcastInDim S1x128 ![1] bcast_S128_S1x128_1 b))) (broadcastInDim S1048576x128 ![] bcast_S_S1048576x128 (constant (F := Ideal) S_ .f32 0x00000000#32))) = LibLayer.linRelu x w b :=
  LibLayer.host_linRelu (a := 1048576) (f := 128) (d := 128) Gen.dot_S1048576x128_S128x128_S1048576x128_1_0_0_1_n_n_wf dot_S1048576x128_S128x128_S1048576x128_1_0_0_1_n_n rfl none x w b
    bcast_S128_S1x128_1 bcast_S1x128_S1048576x128_0_1 bcast_S_S1048576x128

/-- The host's rectified layer from 100000 rows of 133 columns to 128 columns is the rectified layer. -/
theorem layerE (x : FVec Ideal S100000x133 .f32) (w : FVec Ideal S133x128 .f32) (b : FVec Ideal S128 .f32) :
    (maximumf (F := Ideal) (addf (F := Ideal) (Host.dotGeneral (F := Ideal) dot_S100000x133_S133x128_S100000x128_1_0_0_1_n_n none x w) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))) = LibLayer.linRelu x w b :=
  LibLayer.host_linRelu (a := 100000) (f := 133) (d := 128) Gen.dot_S100000x133_S133x128_S100000x128_1_0_0_1_n_n_wf dot_S100000x133_S133x128_S100000x128_1_0_0_1_n_n rfl none x w b
    bcast_S128_S1x128_1 bcast_S1x128_S100000x128_0_1 bcast_S_S100000x128

/-- The host's rectified layer from 100000 rows of 128 columns to 128 columns is the rectified layer. -/
theorem layerF (x : FVec Ideal S100000x128 .f32) (w : FVec Ideal S128x128 .f32) (b : FVec Ideal S128 .f32) :
    (maximumf (F := Ideal) (addf (F := Ideal) (Host.dotGeneral (F := Ideal) dot_S100000x128_S128x128_S100000x128_1_0_0_1_n_n none x w) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))) = LibLayer.linRelu x w b :=
  LibLayer.host_linRelu (a := 100000) (f := 128) (d := 128) Gen.dot_S100000x128_S128x128_S100000x128_1_0_0_1_n_n_wf dot_S100000x128_S128x128_S100000x128_1_0_0_1_n_n rfl none x w b
    bcast_S128_S1x128_1 bcast_S1x128_S100000x128_0_1 bcast_S_S100000x128

/-- The host's rectified layer from 65536 rows of 256 columns to 128 columns is the rectified layer. -/
theorem layerG (x : FVec Ideal S65536x256 .f32) (w : FVec Ideal S256x128 .f32) (b : FVec Ideal S128 .f32) :
    (maximumf (F := Ideal) (addf (F := Ideal) (Host.dotGeneral (F := Ideal) dot_S65536x256_S256x128_S65536x128_1_0_0_1_n_n none x w) (broadcastInDim S65536x128 ![0, 1] bcast_S1x128_S65536x128_0_1 (broadcastInDim S1x128 ![1] bcast_S128_S1x128_1 b))) (broadcastInDim S65536x128 ![] bcast_S_S65536x128 (constant (F := Ideal) S_ .f32 0x00000000#32))) = LibLayer.linRelu x w b :=
  LibLayer.host_linRelu (a := 65536) (f := 256) (d := 128) Gen.dot_S65536x256_S256x128_S65536x128_1_0_0_1_n_n_wf dot_S65536x256_S256x128_S65536x128_1_0_0_1_n_n rfl none x w b
    bcast_S128_S1x128_1 bcast_S1x128_S65536x128_0_1 bcast_S_S65536x128

/-- The host's last affine layer, from 65536 rows of 128 columns to one column, is the affine layer. -/
theorem layerH (x : FVec Ideal S65536x128 .f32) (w : FVec Ideal S128x1 .f32) (b : FVec Ideal S1 .f32) :
    (addf (F := Ideal) (Host.dotGeneral (F := Ideal) dot_S65536x128_S128x1_S65536x1_1_0_0_1_n_n none x w) (broadcastInDim S65536x1 ![0, 1] bcast_S1x1_S65536x1_0_1 (broadcastInDim S1x1 ![1] bcast_S1_S1x1_1 b))) = LibLayer.lin x w b :=
  LibLayer.host_lin (a := 65536) (f := 128) (d := 1) Gen.dot_S65536x128_S128x1_S65536x1_1_0_0_1_n_n_wf dot_S65536x128_S128x1_S65536x1_1_0_0_1_n_n rfl none x w b
    bcast_S1_S1x1_1 bcast_S1x1_S65536x1_0_1

/-- The reference's composed term, over any arguments, is `refNet` of them. -/
theorem host_eq (x0 : FVec Ideal S65536x64 .f32) (x1 : FVec Ideal S1048576x64 .f32) (x2 : IVec S1048576 32) (x3 : IVec S65536 32)
    (x4 : FVec Ideal S100000x5 .f32) (x5 : FVec Ideal S64x128 .f32) (x6 : FVec Ideal S128 .f32) (x7 : FVec Ideal S128x128 .f32)
    (x8 : FVec Ideal S128 .f32) (x9 : FVec Ideal S133x128 .f32) (x10 : FVec Ideal S128 .f32) (x11 : FVec Ideal S128x128 .f32)
    (x12 : FVec Ideal S128 .f32) (x13 : FVec Ideal S256x128 .f32) (x14 : FVec Ideal S128 .f32) (x15 : FVec Ideal S128x1 .f32)
    (x16 : FVec Ideal S1 .f32) :
    shapeCast S65536 (addf (F := Ideal) (Host.dotGeneral (F := Ideal) dot_S65536x128_S128x1_S65536x1_1_0_0_1_n_n none (maximumf (F := Ideal) (addf (F := Ideal) (Host.dotGeneral (F := Ideal) dot_S65536x256_S256x128_S65536x128_1_0_0_1_n_n none (concatenate S65536x256 1 [⟨S65536x128, (maximumf (F := Ideal) (addf (F := Ideal) (Host.dotGeneral (F := Ideal) dot_S65536x128_S128x128_S65536x128_1_0_0_1_n_n none (maximumf (F := Ideal) (addf (F := Ideal) (Host.dotGeneral (F := Ideal) dot_S65536x64_S64x128_S65536x128_1_0_0_1_n_n none x0 x5) (broadcastInDim S65536x128 ![0, 1] bcast_S1x128_S65536x128_0_1 (broadcastInDim S1x128 ![1] bcast_S128_S1x128_1 x6))) (broadcastInDim S65536x128 ![] bcast_S_S65536x128 (constant (F := Ideal) S_ .f32 0x00000000#32))) x7) (broadcastInDim S65536x128 ![0, 1] bcast_S1x128_S65536x128_0_1 (broadcastInDim S1x128 ![1] bcast_S128_S1x128_1 x8))) (broadcastInDim S65536x128 ![] bcast_S_S65536x128 (constant (F := Ideal) S_ .f32 0x00000000#32)))⟩, ⟨S65536x128, (Host.gather gather_S100000x128_S65536x1_S65536x128_1_0_n_n_0_1_1128 (maximumf (F := Ideal) (addf (F := Ideal) (Host.dotGeneral (F := Ideal) dot_S100000x128_S128x128_S100000x128_1_0_0_1_n_n none (maximumf (F := Ideal) (addf (F := Ideal) (Host.dotGeneral (F := Ideal) dot_S100000x133_S133x128_S100000x128_1_0_0_1_n_n none (concatenate S100000x133 1 [⟨S100000x5, x4⟩, ⟨S100000x128, (Host.divf (F := Ideal) (Host.scatterAdd (F := Ideal) scatter_S100000x128_S1048576x1_S1048576x128_1_0_0_1 (broadcastInDim S100000x128 ![] bcast_S_S100000x128 (constant (F := Ideal) S_ .f32 0x00000000#32)) (broadcastInDim S1048576x1 ![0] bcast_S1048576_S1048576x1_0 x2) (maximumf (F := Ideal) (addf (F := Ideal) (Host.dotGeneral (F := Ideal) dot_S1048576x128_S128x128_S1048576x128_1_0_0_1_n_n none (maximumf (F := Ideal) (addf (F := Ideal) (Host.dotGeneral (F := Ideal) dot_S1048576x64_S64x128_S1048576x128_1_0_0_1_n_n none x1 x5) (broadcastInDim S1048576x128 ![0, 1] bcast_S1x128_S1048576x128_0_1 (broadcastInDim S1x128 ![1] bcast_S128_S1x128_1 x6))) (broadcastInDim S1048576x128 ![] bcast_S_S1048576x128 (constant (F := Ideal) S_ .f32 0x00000000#32))) x7) (broadcastInDim S1048576x128 ![0, 1] bcast_S1x128_S1048576x128_0_1 (broadcastInDim S1x128 ![1] bcast_S128_S1x128_1 x8))) (broadcastInDim S1048576x128 ![] bcast_S_S1048576x128 (constant (F := Ideal) S_ .f32 0x00000000#32)))) (broadcastInDim S100000x128 ![0, 1] bcast_S100000x1_S100000x128_0_1 (broadcastInDim S100000x1 ![0] bcast_S100000_S100000x1_0 (maximumf (F := Ideal) (Host.scatterAdd (F := Ideal) scatter_S100000_S1048576x1_S1048576_n_0_0_1 (broadcastInDim S100000 ![] bcast_S_S100000 (constant (F := Ideal) S_ .f32 0x00000000#32)) (broadcastInDim S1048576x1 ![0] bcast_S1048576_S1048576x1_0 x2) (broadcastInDim S1048576 ![] bcast_S_S1048576 (constant (F := Ideal) S_ .f32 0x3F800000#32))) (broadcastInDim S100000 ![] bcast_S_S100000 (constant (F := Ideal) S_ .f32 0x3F800000#32))))))⟩] concatenates_S100000x5_S100000x128_S100000x133_d1) x9) (broadcastInDim S100000x128 ![0, 1] bcast_S1x128_S100000x128_0_1 (broadcastInDim S1x128 ![1] bcast_S128_S1x128_1 x10))) (broadcastInDim S100000x128 ![] bcast_S_S100000x128 (constant (F := Ideal) S_ .f32 0x00000000#32))) x11) (broadcastInDim S100000x128 ![0, 1] bcast_S1x128_S100000x128_0_1 (broadcastInDim S1x128 ![1] bcast_S128_S1x128_1 x12))) (broadcastInDim S100000x128 ![] bcast_S_S100000x128 (constant (F := Ideal) S_ .f32 0x00000000#32))) (broadcastInDim S65536x1 ![0] bcast_S65536_S65536x1_0 (select (cmpi .slt x3 (broadcastInDim S65536 ![] bcast_S_S65536 (constantI S_ 32 0#32))) (addi x3 (broadcastInDim S65536 ![] bcast_S_S65536 (constantI S_ 32 100000#32))) x3)))⟩] concatenates_S65536x128_S65536x128_S65536x256_d1) x13) (broadcastInDim S65536x128 ![0, 1] bcast_S1x128_S65536x128_0_1 (broadcastInDim S1x128 ![1] bcast_S128_S1x128_1 x14))) (broadcastInDim S65536x128 ![] bcast_S_S65536x128 (constant (F := Ideal) S_ .f32 0x00000000#32))) x15) (broadcastInDim S65536x1 ![0, 1] bcast_S1x1_S65536x1_0_1 (broadcastInDim S1x1 ![1] bcast_S1_S1x1_1 x16))) shapeCasts_S65536x1_S65536 = refNet x0 x1 x2 x3 x4 x5 x6 x7 x8 x9 x10 x11 x12 x13 x14 x15 x16 := by
  rw [layerA, layerB, layerC, layerD, layerE, layerF, layerG, layerH]
  rfl

/-- The reference's result buffer holds `refNet` of the arguments' launch contents. -/
theorem res_eq (m : (ℓ : Loc nD τ sig) → Buf (Elt Ideal) ℓ) (c : Dev nD) :
    Cert.ReferenceIdeal.Value.res_main_v60 (F := Ideal) m c = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Cert.ReferenceIdeal.Value.res_main_v60
  exact host_eq _ _ _ _ _ _ _ _ _ _ _ _ _ _ _ _ _

end Cert.ReferenceIdeal.RefNet

end
-- ==== Proof.Assemble.lean ====
/-
  The certificate's claims from their parts.

  The three programs run and leave their argument arrays as launched: the two kernels' frames and the reference's
  run. The idealization rewrote nothing. At the ideal values the kernel's result and the reference's are one array:
  the reference's result buffer holds `refNet` of its arguments (every dense layer of its term is the whole-array
  layer), the kernel's result buffer holds the last boundary's contents there, and once those contents are `refNet`
  of the kernel's arguments (the hypothesis of `algebraic_of`), arguments that agree give equal results.
-/
import proofs.«129727_j18588618457111_1_alg».proof.Defs
import proofs.«129727_j18588618457111_1_alg».proof.Proof.Gen.Kernel.Frame
import proofs.«129727_j18588618457111_1_alg».proof.Proof.Gen.KernelIdeal.Frame
import proofs.«129727_j18588618457111_1_alg».proof.Proof.Gen.ReferenceIdeal.Run
import proofs.«129727_j18588618457111_1_alg».proof.Proof.RunMain
import proofs.«129727_j18588618457111_1_alg».proof.Proof.RefNet

noncomputable section

namespace Cert.Proof.Assemble

open Idealize.ShloMosaic Idealize.ShloMosaic.TcCoe Idealize.SL.Sem

/-- The kernel as printed runs and leaves its arguments unchanged. -/
theorem frame_k [Cert.Kernel.Facts] [Cert.Pre_finite_inputs.Facts] : Cert.frame_Kernel :=
  fun m ρ _ => Cert.Kernel.Gen.frame m ρ

/-- The idealized kernel runs and leaves its arguments unchanged. -/
theorem frame_ki [Cert.KernelIdeal.Facts] [Cert.Pre_finite_inputs.Facts] : Cert.frame_KernelIdeal :=
  fun m ρ _ => Cert.KernelIdeal.Gen.frame m ρ

/-- The reference runs and leaves its arguments unchanged: its run, the result's conjunct dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- Both programs end with `refNet` of the kernel's arguments in their result buffers, given that the kernel's last
    boundary holds it there. -/
theorem algebraic_of [Cert.KernelIdeal.Facts] [Cert.ReferenceIdeal.Facts] [Cert.Pre_finite_inputs.Facts]
    (hv : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.KernelIdeal.Gen.W10 m ρ c (Proc.devRef .tc Cert.KernelIdeal.main_v26)
        = Cert.ReferenceIdeal.RefNet.refNet
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))) :
    Cert.algebraic_KernelIdeal_ReferenceIdeal := by
  intro m ρ m' ρ' _ hagree
  refine ⟨fun c => Cert.ReferenceIdeal.RefNet.refNet
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16)), ?_, ?_⟩
  · exact (θ_run Cert.KernelIdeal.defs _ _).mono (fun r h c => ⟨(h c).1.trans (hv m ρ c), (h c).2⟩)
      (Cert.KernelIdeal.RunMain.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefNet.res_eq m' c,
      (hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2]

end Cert.Proof.Assemble

end
-- ==== Proof.Walk.lean ====
/-
  What each region of the idealized kernel finds in its windows' arrays, and what the program returns, read back
  through the segments of the program: a region's output array holds what its pipeline leaves; a host stretch
  rewrites the buffers its operations name and leaves the rest; an argument array is never written. So
    the result           is the reshape of region 3's output array;
    region 3's inputs    are region 0's output array, the rows gathered (by the wrapped index column) from the first
                         100000 rows of region 2's output array, and four arguments;
    region 2's inputs    are the feature array padded with 352 zero rows, the padded quotient of the scattered sums
                         of region 1's output array by the floored counts, and four arguments;
    regions 0 and 1      read arguments only.
-/
import proofs.«129727_j18588618457111_1_alg».proof.Proof.Gen.KernelIdeal.Frame
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 1's entry: the launch contents, region 0's output aside -/

theorem V1_arg1 (c : Dev nD) : V1 m ρ c main_arg1 = m ((c : Thread nD τ).loc main_arg1) :=
  W1_of_ne m ρ c main_arg1 (by decide)
theorem V1_arg5 (c : Dev nD) : V1 m ρ c main_arg5 = m ((c : Thread nD τ).loc main_arg5) :=
  (W1_arr m ρ c 1).trans (((dat0 (V0 m ρ) c).arrAt_in 1 rfl _).trans (A_eq0 (V0 m ρ) c 1))
theorem V1_arg6 (c : Dev nD) : V1 m ρ c main_arg6 = m ((c : Thread nD τ).loc main_arg6) :=
  (W1_arr m ρ c 2).trans (((dat0 (V0 m ρ) c).arrAt_in 2 rfl _).trans (A_eq0 (V0 m ρ) c 2))
theorem V1_arg7 (c : Dev nD) : V1 m ρ c main_arg7 = m ((c : Thread nD τ).loc main_arg7) :=
  (W1_arr m ρ c 3).trans (((dat0 (V0 m ρ) c).arrAt_in 3 rfl _).trans (A_eq0 (V0 m ρ) c 3))
theorem V1_arg8 (c : Dev nD) : V1 m ρ c main_arg8 = m ((c : Thread nD τ).loc main_arg8) :=
  (W1_arr m ρ c 4).trans (((dat0 (V0 m ρ) c).arrAt_in 4 rfl _).trans (A_eq0 (V0 m ρ) c 4))

/-! ## After region 1: buffers no region so far has written -/

/-- A buffer that is neither of region 0's nor of region 1's arrays is, after region 1, as launched. -/
theorem W2_launch (c : Dev nD) (b : Ref sig .tc) (h0 : ∀ w, Pipeline.arrRef spec0 w ≠ b) (h1 : ∀ w, Pipeline.arrRef spec1 w ≠ b) :
    W2 m ρ c (Proc.devRef .tc b) = m ((c : Thread nD τ).loc b) :=
  (W2_of_ne m ρ c b h1).trans (W1_of_ne m ρ c b h0)

/-- Region 0's output array is not touched by region 1. -/
theorem W2_v0 (c : Dev nD) : W2 m ρ c (Proc.devRef .tc main_v0) = (dat0 (V0 m ρ) c).arrAt 5 cfg0.N :=
  (W2_of_ne m ρ c main_v0 (by decide)).trans (W1_arr m ρ c 5)

/-! ## Region 2's entry: after the four host stretches that follow region 1 -/

/-- Unfolds the four stretches between region 1 and region 2 at a literal buffer and reads every operation's result. -/
local macro "stretches_to_region2" : tactic =>
  `(tactic| (show StableHlo.after hostOps2_3 (StableHlo.after hostOps2_2 (StableHlo.after hostOps2_1
      (StableHlo.after hostOps2 (W2 _ _ _)))) (Proc.devRef .tc _) = _; after_results))

theorem V6_arg9 (c : Dev nD) : V6 m ρ c main_arg9 = m ((c : Thread nD τ).loc main_arg9) := by
  stretches_to_region2; exact W2_launch m ρ c main_arg9 (by decide) (by decide)
theorem V6_arg10 (c : Dev nD) : V6 m ρ c main_arg10 = m ((c : Thread nD τ).loc main_arg10) := by
  stretches_to_region2; exact W2_launch m ρ c main_arg10 (by decide) (by decide)
theorem V6_arg11 (c : Dev nD) : V6 m ρ c main_arg11 = m ((c : Thread nD τ).loc main_arg11) := by
  stretches_to_region2; exact W2_launch m ρ c main_arg11 (by decide) (by decide)
theorem V6_arg12 (c : Dev nD) : V6 m ρ c main_arg12 = m ((c : Thread nD τ).loc main_arg12) := by
  stretches_to_region2; exact W2_launch m ρ c main_arg12 (by decide) (by decide)
theorem W6_arg3 (c : Dev nD) : W6 m ρ c (Proc.devRef .tc main_arg3) = m ((c : Thread nD τ).loc main_arg3) := by
  stretches_to_region2; exact W2_launch m ρ c main_arg3 (by decide) (by decide)
theorem W6_arg13 (c : Dev nD) : W6 m ρ c (Proc.devRef .tc main_arg13) = m ((c : Thread nD τ).loc main_arg13) := by
  stretches_to_region2; exact W2_launch m ρ c main_arg13 (by decide) (by decide)
theorem W6_arg14 (c : Dev nD) : W6 m ρ c (Proc.devRef .tc main_arg14) = m ((c : Thread nD τ).loc main_arg14) := by
  stretches_to_region2; exact W2_launch m ρ c main_arg14 (by decide) (by decide)
theorem W6_arg15 (c : Dev nD) : W6 m ρ c (Proc.devRef .tc main_arg15) = m ((c : Thread nD τ).loc main_arg15) := by
  stretches_to_region2; exact W2_launch m ρ c main_arg15 (by decide) (by decide)
theorem W6_arg16 (c : Dev nD) : W6 m ρ c (Proc.devRef .tc main_arg16) = m ((c : Thread nD τ).loc main_arg16) := by
  stretches_to_region2; exact W2_launch m ρ c main_arg16 (by decide) (by decide)
theorem W6_v0 (c : Dev nD) : W6 m ρ c (Proc.devRef .tc main_v0) = (dat0 (V0 m ρ) c).arrAt 5 cfg0.N := by
  stretches_to_region2; exact W2_v0 m ρ c

/-- The feature array, padded below with 352 rows of the converted integer zero. -/
theorem V6_v14 (c : Dev nD) : V6 m ρ c main_v14 =
    pad S100352x5 ![0, 0] ![352, 0] ![0, 0] (m ((c : Thread nD τ).loc main_arg4)) (sitofp (F := F) .f32 (constantI S_ 32 0#32))
      pads_S100000x5_S100352x5_03520_000 h_S_ := by
  stretches_to_region2
  dsimp only
  rw [W2_launch m ρ c main_arg4 (by decide) (by decide)]
  rfl

/-- The per-segment means of region 1's output rows: the scattered sums divided by the scattered counts floored at one,
    padded below with 352 rows of the converted integer zero. -/
theorem V6_v15 (c : Dev nD) : V6 m ρ c main_v15 =
    pad S100352x128 ![0, 0] ![352, 0] ![0, 0]
      (Host.divf
        (Host.scatterAdd scatter_S100000x128_S1048576x1_S1048576x128_1_0_0_1
          (broadcastInDim S100000x128 ![] bcast_S_S100000x128 (constant (F := F) S_ .f32 0x00000000#32))
          (broadcastInDim S1048576x1 ![0] bcast_S1048576_S1048576x1_0 (m ((c : Thread nD τ).loc main_arg2)))
          ((dat1 (V1 m ρ) c).arrAt 5 cfg1.N))
        (broadcastInDim S100000x128 ![0, 1] bcast_S100000x1_S100000x128_0_1
          (broadcastInDim S100000x1 ![0] bcast_S100000_S100000x1_0
            (maximumf
              (Host.scatterAdd scatter_S100000_S1048576x1_S1048576_n_0_0_1
                (broadcastInDim S100000 ![] bcast_S_S100000 (constant (F := F) S_ .f32 0x00000000#32))
                (broadcastInDim S1048576x1 ![0] bcast_S1048576_S1048576x1_0 (m ((c : Thread nD τ).loc main_arg2)))
                (broadcastInDim S1048576 ![] bcast_S_S1048576 (constant (F := F) S_ .f32 0x3F800000#32)))
              (broadcastInDim S100000 ![] bcast_S_S100000 (constant (F := F) S_ .f32 0x3F800000#32))))))
      (sitofp (F := F) .f32 (constantI S_ 32 0#32))
      pads_S100000x128_S100352x128_03520_000 h_S_ := by
  stretches_to_region2
  rw [W2_launch m ρ c main_arg2 (by decide) (by decide), W2_arr m ρ c 5]
  rfl

/-! ## Region 3's entry: after region 2 and the stretch that follows it -/

/-- A buffer that is not one of region 2's arrays is, after region 2, what it was at region 2's entry. -/
local macro "stretch_to_region3" : tactic =>
  `(tactic| (show StableHlo.after hostOps3 (W7 _ _ _) (Proc.devRef .tc _) = _; after_results))

theorem V8_arg13 (c : Dev nD) : V8 m ρ c main_arg13 = m ((c : Thread nD τ).loc main_arg13) := by
  stretch_to_region3; exact (W7_of_ne m ρ c main_arg13 (by decide)).trans (W6_arg13 m ρ c)
theorem V8_arg14 (c : Dev nD) : V8 m ρ c main_arg14 = m ((c : Thread nD τ).loc main_arg14) := by
  stretch_to_region3; exact (W7_of_ne m ρ c main_arg14 (by decide)).trans (W6_arg14 m ρ c)
theorem V8_arg15 (c : Dev nD) : V8 m ρ c main_arg15 = m ((c : Thread nD τ).loc main_arg15) := by
  stretch_to_region3; exact (W7_of_ne m ρ c main_arg15 (by decide)).trans (W6_arg15 m ρ c)
theorem V8_arg16 (c : Dev nD) : V8 m ρ c main_arg16 = m ((c : Thread nD τ).loc main_arg16) := by
  stretch_to_region3; exact (W7_of_ne m ρ c main_arg16 (by decide)).trans (W6_arg16 m ρ c)
theorem V8_v0 (c : Dev nD) : V8 m ρ c main_v0 = (dat0 (V0 m ρ) c).arrAt 5 cfg0.N := by
  stretch_to_region3; exact (W7_of_ne m ρ c main_v0 (by decide)).trans (W6_v0 m ρ c)

/-- The rows of region 2's output array, its first 100000 rows kept, gathered by the index column: each index below
    zero raised by 100000, then laid out as a column. -/
theorem V8_v24 (c : Dev nD) : V8 m ρ c main_v24 =
    Host.gather gather_S100000x128_S65536x1_S65536x128_1_0_n_n_0_1_1128
      (extractStridedSlice S100000x128 ![0, 0] ((dat2 (V6 m ρ) c).arrAt 6 cfg2.N) slices_S100352x128_S100000x128_0_0)
      (broadcastInDim S65536x1 ![0] bcast_S65536_S65536x1_0
        (select
          (cmpi .slt (m ((c : Thread nD τ).loc main_arg3)) (broadcastInDim S65536 ![] bcast_S_S65536 (constantI S_ 32 0#32)))
          (addi (m ((c : Thread nD τ).loc main_arg3)) (broadcastInDim S65536 ![] bcast_S_S65536 (constantI S_ 32 100000#32)))
          (m ((c : Thread nD τ).loc main_arg3)))) := by
  have h : V8 m ρ c main_v24 =
      Host.gather gather_S100000x128_S65536x1_S65536x128_1_0_n_n_0_1_1128
        (extractStridedSlice S100000x128 ![0, 0] (W7 m ρ c (Proc.devRef .tc main_v16)) slices_S100352x128_S100000x128_0_0)
        (broadcastInDim S65536x1 ![0] bcast_S65536_S65536x1_0
          (select
            (cmpi .slt (W7 m ρ c (Proc.devRef .tc main_arg3)) (broadcastInDim S65536 ![] bcast_S_S65536 (constantI S_ 32 0#32)))
            (addi (W7 m ρ c (Proc.devRef .tc main_arg3)) (broadcastInDim S65536 ![] bcast_S_S65536 (constantI S_ 32 100000#32)))
            (W7 m ρ c (Proc.devRef .tc main_arg3)))) := by
    stretch_to_region3
  refine h.trans ?_
  rw [W7_arr m ρ c 6, (W7_of_ne m ρ c main_arg3 (by decide)).trans (W6_arg3 m ρ c)]

/-! ## The result -/

/-- The program's result: region 3's output column, reshaped to a vector. -/
theorem W10_v26 (c : Dev nD) : W10 m ρ c (Proc.devRef .tc main_v26) =
    shapeCast S65536 ((dat3 (V8 m ρ) c).arrAt 6 cfg3.N) shapeCasts_S65536x1_S65536 := by
  have h : W10 m ρ c (Proc.devRef .tc main_v26) =
      shapeCast S65536 (W9 m ρ c (Proc.devRef .tc main_v25)) shapeCasts_S65536x1_S65536 := by
    show StableHlo.after hostOps4 (W9 m ρ c) (Proc.devRef .tc main_v26) = _
    after_results
    rfl
  refine h.trans ?_
  rw [W9_arr m ρ c 6]

end Cert.KernelIdeal.Walk

end
-- ==== Proof.Regions01.lean ====
/-
  The final arrays of the two encoder regions, as whole-array functions of the contents the regions are entered with.

  Each region applies, row tile by row tile, two rectified dense layers to a matrix of 64 columns:
      y = relu (relu (x · W1 + b1) · W2 + b2),
  the first over 65536 rows in 16 tiles of 4096, the second over 1048576 rows in 128 tiles of 8192. The weights and
  biases are whole at every grid point; the input and the result move one row tile per point.

  Per region: the body's result on a block is the two layers of that block (the store is the whole block through the
  rectangle at the origin, and each matrix product of operands narrowed to bf16, plus the bias laid out as a row,
  under the maximum with zero, is a rectified layer); the block indices at a grid point (decided over the grid); each
  input block as rows of its array; what a point writes back is its block of the two layers of the WHOLE input (an
  entry of a layer depends on its own row of the input only); every row is in the block of the point row / tile;
  so the result array ends holding the two layers of the whole input.
-/
import proofs.«129727_j18588618457111_1_alg».proof.Proof.Gen.KernelIdeal.Frame
import proofs.«129727_j18588618457111_1_alg».proof.Proof.LibLayer
import Idealize.ShloMosaic.Lib.Pipeline.Value

noncomputable section

namespace Cert.KernelIdeal.Regions01

open Cert.KernelIdeal Cert.KernelIdeal.Gen Idealize.ShloMosaic Idealize.ShloMosaic.TcCoe Idealize.SL.Sem
open Idealize.ShloMosaic.Pipeline (Dat)
open Idealize.ShloMosaic.ValueIdx

/-- The rank-2 origin, as the constant zero offsets. -/
theorem zero2 : (![0, 0] : Fin 2 → Nat) = fun _ => 0 := funext fun a => by fin_cases a <;> rfl
/-- The rank-1 origin, as the constant zero offsets. -/
theorem zero1 : (![0] : Fin 1 → Nat) = fun _ => 0 := funext fun a => by fin_cases a; rfl

/-- Two stacked rectified layers at an entry depend on that entry's row of the input only: inputs that agree on a
    row give the same entries on it. -/
theorem mlp_row_congr {a a' f h d : Nat} (x : FVec Ideal ⟨2, ![a, f]⟩ .f32) (x' : FVec Ideal ⟨2, ![a', f]⟩ .f32)
    (w1 : FVec Ideal ⟨2, ![f, h]⟩ .f32) (b1 : FVec Ideal ⟨1, ![h]⟩ .f32)
    (w2 : FVec Ideal ⟨2, ![h, d]⟩ .f32) (b2 : FVec Ideal ⟨1, ![d]⟩ .f32)
    (i : (⟨2, ![a, d]⟩ : Shape).Idx) (i' : (⟨2, ![a', d]⟩ : Shape).Idx)
    (hq : (i 1).val = (i' 1).val)
    (hx : ∀ k : Fin f, x (ix2 (i 0) k) = x' (ix2 (i' 0) k)) :
    LibLayer.linRelu (LibLayer.linRelu x w1 b1) w2 b2 i = LibLayer.linRelu (LibLayer.linRelu x' w1 b1) w2 b2 i' := by
  obtain ⟨p, q, rfl⟩ : ∃ (p : Fin a) (q : Fin d), i = ix2 p q := ⟨i 0, i 1, eq_ix2 i⟩
  obtain ⟨p', q', rfl⟩ : ∃ (p' : Fin a') (q' : Fin d), i' = ix2 p' q' := ⟨i' 0, i' 1, eq_ix2 i'⟩
  obtain rfl : q = q' := Fin.ext hq
  exact LibLayer.linRelu_row_congr _ _ w2 b2 p p'
    (fun k => LibLayer.linRelu_row_congr x x' w1 b1 p p' hx k) q

section Regions0

/-! ## Region 0: the encoder of 65536 rows, in 16 row tiles of 4096 -/

/-- The body's result on a block: the two rectified layers of the block's rows. -/
theorem out0 (x0 : Vec Ideal S4096x64 .f32) (x1 : Vec Ideal S64x128 .f32) (x2 : Vec Ideal S128 .f32)
    (x3 : Vec Ideal S128x128 .f32) (x4 : Vec Ideal S128 .f32) :
    Gen.out0_5 x0 x1 x2 x3 x4 = LibLayer.linRelu (LibLayer.linRelu x0 x1 x2) x3 x4 := by
  unfold Gen.out0_5
  rw [View.canon_unit_zero zero2]
  simp only [View.ld_unit_zero (S := S4096x64) zero2, View.ld_unit_zero (S := S64x128) zero2,
    View.ld_unit_zero (S := S128) zero1, View.ld_unit_zero (S := S128x128) zero2]
  unfold Gen.k0_pay1
  have inner := LibLayer.kernel_linRelu (a := 4096) (f := 64) (d := 128)
    Gen.dot_S4096x64_S64x128_S4096x128_1_0_0_1_n_n_wf dot_S4096x64_S64x128_S4096x128_1_0_0_1_n_n rfl none
    x0 x1 x2 bitsLt_bf16_f32 bitsLt_bf16_f32 shapeCasts_S128_S1x128 broadcasts_S1x128_S4096x128
  have outer := LibLayer.kernel_linRelu (a := 4096) (f := 128) (d := 128)
    Gen.dot_S4096x128_S128x128_S4096x128_1_0_0_1_n_n_wf dot_S4096x128_S128x128_S4096x128_1_0_0_1_n_n rfl none
    (LibLayer.linRelu x0 x1 x2) x3 x4 bitsLt_bf16_f32 bitsLt_bf16_f32 shapeCasts_S128_S1x128 broadcasts_S1x128_S4096x128
  dsimp only
  rw [inner, outer]

/-- The block indices at a grid point: the row tile's is the point, every other one is zero. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The input block at point t holds rows t * 4096 … of the input array. -/
theorem iblk0_0_apply (c : Dev nD) (t : Fin cfg0.N) (y : S4096x64.Idx) (k : S65536x64.Idx)
    (hk0 : (k 0).val = t.val * 4096 + (y 0).val) (hk1 : (k 1).val = (y 1).val) :
    (Gen.iblk0 V c 0 t : Vec Ideal S4096x64 .f32) y = (V c main_arg0 : FVec Ideal S65536x64 .f32) k := by
  obtain ⟨e0, e1, -⟩ := index0 t
  unfold Gen.iblk0
  rw [View.read_apply]
  show (V c main_arg0 : FVec Ideal S65536x64 .f32) _ = _
  refine congrArg _ ?_
  funext a; apply Fin.ext
  match a with
  | ⟨0, _⟩ => show win0_0.index t (0 : Fin 2) * 4096 + 1 * (y 0).val = (k 0).val; rw [e0, hk0]; omega
  | ⟨1, _⟩ => show win0_0.index t (1 : Fin 2) * 64 + 1 * (y 1).val = (k 1).val; rw [e1, hk1]; omega

/-- The first weight's block is the whole array. -/
theorem iblk0_1_eq (c : Dev nD) (t : Fin cfg0.N) :
    (Gen.iblk0 V c 1 t : Vec Ideal S64x128 .f32) = (V c main_arg5 : FVec Ideal S64x128 .f32) := by
  obtain ⟨-, -, e0, e1, -⟩ := index0 t
  funext y
  unfold Gen.iblk0
  rw [View.read_apply]
  show (V c main_arg5 : FVec Ideal S64x128 .f32) _ = _
  refine congrArg _ ?_
  funext a; apply Fin.ext
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- The first bias's block is the whole array. -/
theorem iblk0_2_eq (c : Dev nD) (t : Fin cfg0.N) :
    (Gen.iblk0 V c 2 t : Vec Ideal S128 .f32) = (V c main_arg6 : FVec Ideal S128 .f32) := by
  obtain ⟨-, -, -, -, e0, -⟩ := index0 t
  funext y
  unfold Gen.iblk0
  rw [View.read_apply]
  show (V c main_arg6 : FVec Ideal S128 .f32) _ = _
  refine congrArg _ ?_
  funext a; apply Fin.ext
  match a with
  | ⟨0, _⟩ => show win0_2.index t (0 : Fin 1) * 128 + 1 * (y 0).val = (y 0).val; rw [e0]; omega

/-- The second weight's block is the whole array. -/
theorem iblk0_3_eq (c : Dev nD) (t : Fin cfg0.N) :
    (Gen.iblk0 V c 3 t : Vec Ideal S128x128 .f32) = (V c main_arg7 : FVec Ideal S128x128 .f32) := by
  obtain ⟨-, -, -, -, -, e0, e1, -⟩ := index0 t
  funext y
  unfold Gen.iblk0
  rw [View.read_apply]
  show (V c main_arg7 : FVec Ideal S128x128 .f32) _ = _
  refine congrArg _ ?_
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second bias's block is the whole array. -/
theorem iblk0_4_eq (c : Dev nD) (t : Fin cfg0.N) :
    (Gen.iblk0 V c 4 t : Vec Ideal S128 .f32) = (V c main_arg8 : FVec Ideal S128 .f32) := by
  obtain ⟨-, -, -, -, -, -, -, e0, -⟩ := index0 t
  funext y
  unfold Gen.iblk0
  rw [View.read_apply]
  show (V c main_arg8 : FVec Ideal S128 .f32) _ = _
  refine congrArg _ ?_
  funext a; apply Fin.ext
  match a with
  | ⟨0, _⟩ => show win0_4.index t (0 : Fin 1) * 128 + 1 * (y 0).val = (y 0).val; rw [e0]; omega

/-- The encoder of all 65536 rows: the two rectified layers of the input array. -/
abbrev enc0 (c : Dev nD) : FVec Ideal S65536x128 .f32 :=
  LibLayer.linRelu (LibLayer.linRelu (V c main_arg0 : FVec Ideal S65536x64 .f32) (V c main_arg5) (V c main_arg6))
    (V c main_arg7) (V c main_arg8)

/-- What point t writes back is block t of the encoder of all rows. -/
theorem flushed0_eq (c : Dev nD) (t : Fin cfg0.N) :
    (Gen.dat0 V c).flushed 5 t = ((cfg0.win 5).blk t).view.read (Elt Ideal) (enc0 V c) := by
  show (cfg0.win 5).cut (grid0.coords t) ((Gen.dat0 V c).after 5 t) = _
  rw [Gen.after0_5, out0, iblk0_1_eq, iblk0_2_eq, iblk0_3_eq, iblk0_4_eq]
  obtain ⟨-, -, -, -, -, -, -, -, e0, e1⟩ := index0 t
  funext j
  show LibLayer.linRelu (LibLayer.linRelu (Gen.iblk0 V c 0 t : FVec Ideal S4096x64 .f32) _ _) _ _
      ((cfg0.win 5).xinj (grid0.coords t) j) = enc0 V c (((cfg0.win 5).blk t).view.emb j)
  refine mlp_row_congr _ _ _ _ _ _ _ _ ?_ ?_
  · show (j 1).val = win0_5.index t (1 : Fin 2) * 128 + 1 * (j 1).val
    rw [e1]; omega
  · intro k
    refine iblk0_0_apply V c t _ _ ?_ ?_
    · show win0_5.index t (0 : Fin 2) * 4096 + 1 * (j 0).val = t.val * 4096 + (j 0).val
      rw [e0]; omega
    · rfl

/-- An index of the result array is in point t's block iff each coordinate is in the block's range. -/
theorem mem_blk0 (t : Fin cfg0.N) (i : S65536x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v0).slice (win0_5.rect t)).set ↔ _
  rw [View.set_slice_whole, Rect.mem_set_unit]
  exact Iff.rfl

/-- Row r is in the block of point r / 4096. -/
theorem cover0 (i : S65536x128.Idx) :
    ∃ t : Fin cfg0.N, (cfg0.win 5).flush t = true ∧ i ∈ ((cfg0.win 5).blk t).view.set := by
  have hi0 : (i 0).val < 65536 := (i 0).isLt
  have hi1 : (i 1).val < 128 := (i 1).isLt
  have hN : grid0.N = 16 := Gen.N_0
  obtain ⟨t, ht⟩ : ∃ t : Fin cfg0.N, t.val = (i 0).val / 4096 :=
    ⟨⟨(i 0).val / 4096, by show _ < grid0.N; rw [hN]; omega⟩, rfl⟩
  obtain ⟨-, -, -, -, -, -, -, -, e0, e1⟩ := index0 t
  refine ⟨t, Gen.flush0_5 t, ?_⟩
  rw [mem_blk0]
  intro a
  match a with
  | ⟨0, _⟩ =>
    show win0_5.index t (0 : Fin 2) * 4096 ≤ (i 0).val ∧ (i 0).val < win0_5.index t (0 : Fin 2) * 4096 + 4096
    rw [e0, ht]; omega
  | ⟨1, _⟩ =>
    show win0_5.index t (1 : Fin 2) * 128 ≤ (i 1).val ∧ (i 1).val < win0_5.index t (1 : Fin 2) * 128 + 128
    rw [e1]; omega

/-- The result array after the region: the encoder of all 65536 rows. -/
theorem final0 (c : Dev nD) : (Gen.dat0 V c).arrAt 5 cfg0.N
    = LibLayer.linRelu (LibLayer.linRelu (V c main_arg0 : FVec Ideal S65536x64 .f32) (V c main_arg5) (V c main_arg6))
        (V c main_arg7) (V c main_arg8) :=
  (Gen.dat0 V c).arrAt_eq_of_cover 5 (enc0 V c) (fun t _ => flushed0_eq V c t) cover0

end Regions0

section Regions1

/-! ## Region 1: the encoder of 1048576 rows, in 128 row tiles of 8192 -/

/-- The body's result on a block: the two rectified layers of the block's rows. -/
theorem out1 (x0 : Vec Ideal S8192x64 .f32) (x1 : Vec Ideal S64x128 .f32) (x2 : Vec Ideal S128 .f32)
    (x3 : Vec Ideal S128x128 .f32) (x4 : Vec Ideal S128 .f32) :
    Gen.out1_5 x0 x1 x2 x3 x4 = LibLayer.linRelu (LibLayer.linRelu x0 x1 x2) x3 x4 := by
  unfold Gen.out1_5
  rw [View.canon_unit_zero zero2]
  simp only [View.ld_unit_zero (S := S8192x64) zero2, View.ld_unit_zero (S := S64x128) zero2,
    View.ld_unit_zero (S := S128) zero1, View.ld_unit_zero (S := S128x128) zero2]
  unfold Gen.k1_pay1
  have inner := LibLayer.kernel_linRelu (a := 8192) (f := 64) (d := 128)
    Gen.dot_S8192x64_S64x128_S8192x128_1_0_0_1_n_n_wf dot_S8192x64_S64x128_S8192x128_1_0_0_1_n_n rfl none
    x0 x1 x2 bitsLt_bf16_f32 bitsLt_bf16_f32 shapeCasts_S128_S1x128 broadcasts_S1x128_S8192x128
  have outer := LibLayer.kernel_linRelu (a := 8192) (f := 128) (d := 128)
    Gen.dot_S8192x128_S128x128_S8192x128_1_0_0_1_n_n_wf dot_S8192x128_S128x128_S8192x128_1_0_0_1_n_n rfl none
    (LibLayer.linRelu x0 x1 x2) x3 x4 bitsLt_bf16_f32 bitsLt_bf16_f32 shapeCasts_S128_S1x128 broadcasts_S1x128_S8192x128
  dsimp only
  rw [inner, outer]

/-- The block indices at a grid point: the row tile's is the point, every other one is zero. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The input block at point t holds rows t * 8192 … of the input array. -/
theorem iblk1_0_apply (c : Dev nD) (t : Fin cfg1.N) (y : S8192x64.Idx) (k : S1048576x64.Idx)
    (hk0 : (k 0).val = t.val * 8192 + (y 0).val) (hk1 : (k 1).val = (y 1).val) :
    (Gen.iblk1 V c 0 t : Vec Ideal S8192x64 .f32) y = (V c main_arg1 : FVec Ideal S1048576x64 .f32) k := by
  obtain ⟨e0, e1, -⟩ := index1 t
  unfold Gen.iblk1
  rw [View.read_apply]
  show (V c main_arg1 : FVec Ideal S1048576x64 .f32) _ = _
  refine congrArg _ ?_
  funext a; apply Fin.ext
  match a with
  | ⟨0, _⟩ => show win1_0.index t (0 : Fin 2) * 8192 + 1 * (y 0).val = (k 0).val; rw [e0, hk0]; omega
  | ⟨1, _⟩ => show win1_0.index t (1 : Fin 2) * 64 + 1 * (y 1).val = (k 1).val; rw [e1, hk1]; omega

/-- The first weight's block is the whole array. -/
theorem iblk1_1_eq (c : Dev nD) (t : Fin cfg1.N) :
    (Gen.iblk1 V c 1 t : Vec Ideal S64x128 .f32) = (V c main_arg5 : FVec Ideal S64x128 .f32) := by
  obtain ⟨-, -, e0, e1, -⟩ := index1 t
  funext y
  unfold Gen.iblk1
  rw [View.read_apply]
  show (V c main_arg5 : FVec Ideal S64x128 .f32) _ = _
  refine congrArg _ ?_
  funext a; apply Fin.ext
  match a with
  | ⟨0, _⟩ => show win1_1.index t (0 : Fin 2) * 64 + 1 * (y 0).val = (y 0).val; rw [e0]; omega
  | ⟨1, _⟩ => show win1_1.index t (1 : Fin 2) * 128 + 1 * (y 1).val = (y 1).val; rw [e1]; omega

/-- The first bias's block is the whole array. -/
theorem iblk1_2_eq (c : Dev nD) (t : Fin cfg1.N) :
    (Gen.iblk1 V c 2 t : Vec Ideal S128 .f32) = (V c main_arg6 : FVec Ideal S128 .f32) := by
  obtain ⟨-, -, -, -, e0, -⟩ := index1 t
  funext y
  unfold Gen.iblk1
  rw [View.read_apply]
  show (V c main_arg6 : FVec Ideal S128 .f32) _ = _
  refine congrArg _ ?_
  funext a; apply Fin.ext
  match a with
  | ⟨0, _⟩ => show win1_2.index t (0 : Fin 1) * 128 + 1 * (y 0).val = (y 0).val; rw [e0]; omega

/-- The second weight's block is the whole array. -/
theorem iblk1_3_eq (c : Dev nD) (t : Fin cfg1.N) :
    (Gen.iblk1 V c 3 t : Vec Ideal S128x128 .f32) = (V c main_arg7 : FVec Ideal S128x128 .f32) := by
  obtain ⟨-, -, -, -, -, e0, e1, -⟩ := index1 t
  funext y
  unfold Gen.iblk1
  rw [View.read_apply]
  show (V c main_arg7 : FVec Ideal S128x128 .f32) _ = _
  refine congrArg _ ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The second bias's block is the whole array. -/
theorem iblk1_4_eq (c : Dev nD) (t : Fin cfg1.N) :
    (Gen.iblk1 V c 4 t : Vec Ideal S128 .f32) = (V c main_arg8 : FVec Ideal S128 .f32) := by
  obtain ⟨-, -, -, -, -, -, -, e0, -⟩ := index1 t
  funext y
  unfold Gen.iblk1
  rw [View.read_apply]
  show (V c main_arg8 : FVec Ideal S128 .f32) _ = _
  refine congrArg _ ?_
  funext a; apply Fin.ext
  match a with
  | ⟨0, _⟩ => show win1_4.index t (0 : Fin 1) * 128 + 1 * (y 0).val = (y 0).val; rw [e0]; omega

/-- The encoder of all 1048576 rows: the two rectified layers of the input array. -/
abbrev enc1 (c : Dev nD) : FVec Ideal S1048576x128 .f32 :=
  LibLayer.linRelu (LibLayer.linRelu (V c main_arg1 : FVec Ideal S1048576x64 .f32) (V c main_arg5) (V c main_arg6))
    (V c main_arg7) (V c main_arg8)

/-- What point t writes back is block t of the encoder of all rows. -/
theorem flushed1_eq (c : Dev nD) (t : Fin cfg1.N) :
    (Gen.dat1 V c).flushed 5 t = ((cfg1.win 5).blk t).view.read (Elt Ideal) (enc1 V c) := by
  show (cfg1.win 5).cut (grid1.coords t) ((Gen.dat1 V c).after 5 t) = _
  rw [Gen.after1_5, out1, iblk1_1_eq, iblk1_2_eq, iblk1_3_eq, iblk1_4_eq]
  obtain ⟨-, -, -, -, -, -, -, -, e0, e1⟩ := index1 t
  funext j
  show LibLayer.linRelu (LibLayer.linRelu (Gen.iblk1 V c 0 t : FVec Ideal S8192x64 .f32) _ _) _ _
      ((cfg1.win 5).xinj (grid1.coords t) j) = enc1 V c (((cfg1.win 5).blk t).view.emb j)
  refine mlp_row_congr _ _ _ _ _ _ _ _ ?_ ?_
  · show (j 1).val = win1_5.index t (1 : Fin 2) * 128 + 1 * (j 1).val
    rw [e1]; omega
  · intro k
    refine iblk1_0_apply V c t _ _ ?_ ?_
    · show win1_5.index t (0 : Fin 2) * 8192 + 1 * (j 0).val = t.val * 8192 + (j 0).val
      rw [e0]; omega
    · rfl

/-- An index of the result array is in point t's block iff each coordinate is in the block's range. -/
theorem mem_blk1 (t : Fin cfg1.N) (i : S1048576x128.Idx) :
    i ∈ ((cfg1.win 5).blk t).view.set ↔ ∀ a : Fin 2, win1_5.index t a * S8192x128.size a ≤ (i a).val
      ∧ (i a).val < win1_5.index t a * S8192x128.size a + S8192x128.size a := by
  show i ∈ ((View.whole main_v1).slice (win1_5.rect t)).set ↔ _
  rw [View.set_slice_whole, Rect.mem_set_unit]
  exact Iff.rfl

/-- Row r is in the block of point r / 8192. -/
theorem cover1 (i : S1048576x128.Idx) :
    ∃ t : Fin cfg1.N, (cfg1.win 5).flush t = true ∧ i ∈ ((cfg1.win 5).blk t).view.set := by
  have hi0 : (i 0).val < 1048576 := (i 0).isLt
  have hi1 : (i 1).val < 128 := (i 1).isLt
  have hN : grid1.N = 128 := Gen.N_1
  obtain ⟨t, ht⟩ : ∃ t : Fin cfg1.N, t.val = (i 0).val / 8192 :=
    ⟨⟨(i 0).val / 8192, by show _ < grid1.N; rw [hN]; omega⟩, rfl⟩
  obtain ⟨-, -, -, -, -, -, -, -, e0, e1⟩ := index1 t
  refine ⟨t, Gen.flush1_5 t, ?_⟩
  rw [mem_blk1]
  intro a
  match a with
  | ⟨0, _⟩ =>
    show win1_5.index t (0 : Fin 2) * 8192 ≤ (i 0).val ∧ (i 0).val < win1_5.index t (0 : Fin 2) * 8192 + 8192
    rw [e0, ht]; omega
  | ⟨1, _⟩ =>
    show win1_5.index t (1 : Fin 2) * 128 ≤ (i 1).val ∧ (i 1).val < win1_5.index t (1 : Fin 2) * 128 + 128
    rw [e1]; omega

/-- The result array after the region: the encoder of all 1048576 rows. -/
theorem final1 (c : Dev nD) : (Gen.dat1 V c).arrAt 5 cfg1.N
    = LibLayer.linRelu (LibLayer.linRelu (V c main_arg1 : FVec Ideal S1048576x64 .f32) (V c main_arg5) (V c main_arg6))
        (V c main_arg7) (V c main_arg8) :=
  (Gen.dat1 V c).arrAt_eq_of_cover 5 (enc1 V c) (fun t _ => flushed1_eq V c t) cover1

end Regions1

end Cert.KernelIdeal.Regions01

end
-- ==== Proof.LibConcatCols.lean ====
/-
  Two matrices with the same number of rows laid side by side (a concatenation along axis 1) read at an entry:
  entry (p, c) of the joined n × t matrix is entry (p, c) of the left n × a piece when c < a, and entry (p, c - a)
  of the right n × b piece otherwise (a + b = t). A consequence: if row p of two pieces agrees, column by column,
  with row p' of two other pieces of the same widths, then row p of the first join is row p' of the second.
-/
import Idealize.ShloMosaic.Lib.Pipeline.Value
import Idealize.ShloMosaic.Lib.ValueIdx

noncomputable section

namespace Cert.LibConcatCols

open Idealize.ShloMosaic Idealize.ShloMosaic.ValueIdx

variable {α : Type} {n a b t : Nat}

/-- Entry (p, c) of two pieces joined along the columns: the left piece's entry when c is one of its columns,
    otherwise the right piece's entry, a columns further left. -/
theorem concat_cols_apply (hab : a + b = t)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (c : Fin t) :
    concatenate (⟨2, ![n, t]⟩ : Shape) 1 [⟨⟨2, ![n, a]⟩, x⟩, ⟨⟨2, ![n, b]⟩, y⟩] h (ix2 p c)
      = if hc : c.val < a then x (ix2 p ⟨c.val, hc⟩) else y (ix2 p ⟨c.val - a, by omega⟩) := by
  split
  · next hc =>
    exact concatenate_pair_apply_left (1 : Fin 2) x y h (ix2 p c) rfl (ix2 p ⟨c.val, hc⟩)
      (fun d => match d with | ⟨0, _⟩ => rfl | ⟨1, _⟩ => rfl)
  · next hc =>
    exact concatenate_pair_apply_right (1 : Fin 2) x y h (ix2 p c) rfl rfl (ix2 p ⟨c.val - a, by omega⟩)
      (fun d hd => match d, hd with
        | ⟨0, _⟩, _ => rfl
        | ⟨1, _⟩, hd => absurd rfl hd)
      (by show (c.val - a) + a = c.val; omega)

/-- Rows that agree piece by piece agree after the pieces are joined: if row p of x is row p' of x' and row p of y is
    row p' of y', then row p of [x | y] is row p' of [x' | y']. -/
theorem concat_cols_row_congr {n' : Nat} (hab : a + b = t)
    (x : (⟨2, ![n, a]⟩ : Shape).Idx → α) (y : (⟨2, ![n, b]⟩ : Shape).Idx → α)
    (x' : (⟨2, ![n', a]⟩ : Shape).Idx → α) (y' : (⟨2, ![n', b]⟩ : Shape).Idx → α)
    (h : Shape.Concatenates [(⟨2, ![n, a]⟩ : Shape), ⟨2, ![n, b]⟩] ⟨2, ![n, t]⟩ 1)
    (h' : Shape.Concatenates [(⟨2, ![n', a]⟩ : Shape), ⟨2, ![n', b]⟩] ⟨2, ![n', t]⟩ 1)
    (p : Fin n) (p' : Fin n')
    (hx : ∀ c : Fin a, x (ix2 p c) = x' (ix2 p' c)) (hy : ∀ c : Fin b, y (ix2 p c) = y' (ix2 p' c)) (c : Fin t) :
    concatenate (⟨2, ![n, t]⟩ : Shape) 1 [⟨⟨2, ![n, a]⟩, x⟩, ⟨⟨2, ![n, b]⟩, y⟩] h (ix2 p c)
      = concatenate (⟨2, ![n', t]⟩ : Shape) 1 [⟨⟨2, ![n', a]⟩, x'⟩, ⟨⟨2, ![n', b]⟩, y'⟩] h' (ix2 p' c) := by
  rw [concat_cols_apply hab, concat_cols_apply hab]
  split
  · exact hx _
  · exact hy _

end Cert.LibConcatCols
-- ==== Proof.Regions23.lean ====
/-
  Regions 2 and 3 of the kernel as whole-array functions of the arrays each region finds on entry.

  Region 2 walks the 100352 rows in 49 tiles of 2048. At each tile it joins the tile's rows of a [100352, 5] array and of
  a [100352, 128] array along the columns into rows of 133 features and applies two rectified dense layers,
      relu (relu (x · W1 + b1) · W2 + b2),
  with the matrix operands narrowed to bf16 (the identity at the exact values). Region 3 walks 65536 rows in 16 tiles of
  4096, joins the rows of two [65536, 128] arrays into rows of 256 features and applies one rectified layer and one affine
  layer with a single output column, relu (x · W1 + b1) · W2 + b2.

  Entry (p, q) of a dense layer depends on row p of its input only, and row p of a tile's joined block is row
  2048 t + p (4096 t + p) of the joined arrays. So what tile t writes back is block t of ONE function of the whole arrays:
  the two arrays joined along the columns, through the layers. The tiles cover every row (row r lies in tile r / 2048,
  r / 4096), so the region's result array ends holding that function.
-/
import proofs.«129727_j18588618457111_1_alg».proof.Proof.Gen.KernelIdeal.Frame
import proofs.«129727_j18588618457111_1_alg».proof.Proof.LibLayer
import proofs.«129727_j18588618457111_1_alg».proof.Proof.LibConcatCols
import Idealize.ShloMosaic.Lib.Pipeline.Value
import Idealize.ShloMosaic.Lib.ValueIdx

noncomputable section

namespace Cert.KernelIdeal.Regions23

open Cert.KernelIdeal Cert.KernelIdeal.Gen Idealize.ShloMosaic Idealize.ShloMosaic.TcCoe Idealize.SL.Sem
open Idealize.ShloMosaic.ValueIdx
open Idealize.ShloMosaic.Pipeline (Dat)
open Cert

/-! ## The body on one tile: the joined block through the layers -/

/-- The offset (0, 0) of a rank-2 block read at its origin. -/
theorem origin2 : (![0, 0] : Fin 2 → Nat) = fun _ => 0 := funext fun a => by fin_cases a <;> rfl
/-- The offset (0) of a rank-1 block read at its origin. -/
theorem origin1 : (![0] : Fin 1 → Nat) = fun _ => 0 := funext fun a => by fin_cases a; rfl

/-- Region 2's body on one tile: the tile's two blocks joined along the columns, through the two rectified layers. -/
theorem out2 (x0 : Vec Ideal S2048x5 .f32) (x1 : Vec Ideal S2048x128 .f32) (x2 : Vec Ideal S133x128 .f32)
    (x3 : Vec Ideal S128 .f32) (x4 : Vec Ideal S128x128 .f32) (x5 : Vec Ideal S128 .f32) :
    Gen.out2_6 x0 x1 x2 x3 x4 x5
      = LibLayer.linRelu (LibLayer.linRelu
          (concatenate S2048x133 1 [⟨S2048x5, x0⟩, ⟨S2048x128, x1⟩] Facts₀.concatenates_S2048x5_S2048x128_S2048x133_d1) x2 x3) x4 x5 := by
  unfold Gen.out2_6
  rw [View.canon_unit_zero origin2]
  simp only [View.ld_unit_zero (S := S2048x5) origin2, View.ld_unit_zero (S := S2048x128) origin2, View.ld_unit_zero (S := S133x128) origin2, View.ld_unit_zero (S := S128x128) origin2, View.ld_unit_zero (S := S128) origin1]
  unfold Gen.k2_pay1
  dsimp only
  rw [shapeCast_self, shapeCast_self]
  rw [LibLayer.kernel_linRelu (wf := Facts₀.dot_S2048x133_S133x128_S2048x128_1_0_0_1_n_n_wf) (dd := dot_S2048x133_S133x128_S2048x128_1_0_0_1_n_n) (hdd := rfl)]
  rw [LibLayer.kernel_linRelu (wf := Facts₀.dot_S2048x128_S128x128_S2048x128_1_0_0_1_n_n_wf) (dd := dot_S2048x128_S128x128_S2048x128_1_0_0_1_n_n) (hdd := rfl)]

/-- Region 3's body on one tile: the tile's two blocks joined along the columns, through the rectified layer and the
    affine layer of one output column. -/
theorem out3 (x0 : Vec Ideal S4096x128 .f32) (x1 : Vec Ideal S4096x128 .f32) (x2 : Vec Ideal S256x128 .f32)
    (x3 : Vec Ideal S128 .f32) (x4 : Vec Ideal S128x1 .f32) (x5 : Vec Ideal S1 .f32) :
    Gen.out3_6 x0 x1 x2 x3 x4 x5
      = LibLayer.lin (LibLayer.linRelu
          (concatenate S4096x256 1 [⟨S4096x128, x0⟩, ⟨S4096x128, x1⟩] Facts₀.concatenates_S4096x128_S4096x128_S4096x256_d1) x2 x3) x4 x5 := by
  unfold Gen.out3_6
  rw [View.canon_unit_zero origin2]
  simp only [View.ld_unit_zero (S := S4096x128) origin2, View.ld_unit_zero (S := S256x128) origin2, View.ld_unit_zero (S := S128x1) origin2, View.ld_unit_zero (S := S128) origin1, View.ld_unit_zero (S := S1) origin1]
  unfold Gen.k3_pay1
  dsimp only
  rw [shapeCast_self, shapeCast_self]
  rw [LibLayer.kernel_linRelu (wf := Facts₀.dot_S4096x256_S256x128_S4096x128_1_0_0_1_n_n_wf) (dd := dot_S4096x256_S256x128_S4096x128_1_0_0_1_n_n) (hdd := rfl)]
  rw [LibLayer.kernel_lin (wf := Facts₀.dot_S4096x128_S128x1_S4096x1_1_0_0_1_n_n_wf) (dd := dot_S4096x128_S128x1_S4096x1_1_0_0_1_n_n) (hdd := rfl)]

/-! ## From tiles to the arrays, for any contents V the regions find on entry -/

variable (V : (c : Dev nD) → (b : Ref sig .tc) → Buf (Elt Ideal) ((c : Thread nD τ).loc b))

/-! ## Region 2: rows of 133 features through two rectified layers -/

theorem hcat2 : Shape.Concatenates [S100352x5, S100352x128] ⟨2, ![100352, 133]⟩ 1 := by decide

/-- The whole-array function of region 2: the two arrays joined along the columns, through the two rectified layers. -/
abbrev G2 (c : Dev nD) : S100352x128.Idx → EReal :=
  LibLayer.linRelu (LibLayer.linRelu
    (concatenate (⟨2, ![100352, 133]⟩ : Shape) 1 [⟨S100352x5, V c main_v14⟩, ⟨S100352x128, V c main_v15⟩] hcat2)
    (V c main_arg9) (V c main_arg10)) (V c main_arg11) (V c main_arg12)

/-- Row p of the two layers of a block is row r of the two layers of the arrays when row p of each piece of the
    block is row r of the corresponding array. -/
theorem rows2 (A0 : FVec Ideal ⟨2, ![100352, 5]⟩ .f32) (A1 : FVec Ideal ⟨2, ![100352, 128]⟩ .f32)
    (x0 : FVec Ideal ⟨2, ![2048, 5]⟩ .f32) (x1 : FVec Ideal ⟨2, ![2048, 128]⟩ .f32)
    (w1 : FVec Ideal ⟨2, ![133, 128]⟩ .f32) (b1 : FVec Ideal ⟨1, ![128]⟩ .f32)
    (w2 : FVec Ideal ⟨2, ![128, 128]⟩ .f32) (b2 : FVec Ideal ⟨1, ![128]⟩ .f32)
    (h : Shape.Concatenates [(⟨2, ![2048, 5]⟩ : Shape), ⟨2, ![2048, 128]⟩] ⟨2, ![2048, 133]⟩ 1)
    (h' : Shape.Concatenates [(⟨2, ![100352, 5]⟩ : Shape), ⟨2, ![100352, 128]⟩] ⟨2, ![100352, 133]⟩ 1)
    (p : Fin 2048) (r : Fin 100352)
    (h0 : ∀ k : Fin 5, x0 (ix2 p k) = A0 (ix2 r k)) (h1 : ∀ k : Fin 128, x1 (ix2 p k) = A1 (ix2 r k)) (q : Fin 128) :
    LibLayer.linRelu (LibLayer.linRelu (concatenate (⟨2, ![2048, 133]⟩ : Shape) 1 [⟨⟨2, ![2048, 5]⟩, x0⟩, ⟨⟨2, ![2048, 128]⟩, x1⟩] h) w1 b1) w2 b2 (ix2 p q)
      = LibLayer.linRelu (LibLayer.linRelu (concatenate (⟨2, ![100352, 133]⟩ : Shape) 1 [⟨⟨2, ![100352, 5]⟩, A0⟩, ⟨⟨2, ![100352, 128]⟩, A1⟩] h') w1 b1) w2 b2 (ix2 r q) :=
  LibLayer.linRelu_row_congr _ _ w2 b2 p r (fun k => LibLayer.linRelu_row_congr _ _ w1 b1 p r
    (fun c => LibConcatCols.concat_cols_row_congr rfl x0 x1 A0 A1 h h' p r h0 h1 c) k) q

/-- The printed index maps over the grid: the two row-tiled inputs and the output sit at block (t, 0), the weights
    and biases at block 0. -/
theorem blocks_at2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The first input's block at point t holds rows 2048 t … of its array. -/
theorem read2_0 (c : Dev nD) (t : Fin cfg2.N) (p : Fin 2048) (k : Fin 5) (r : Fin 100352) (hr : r.val = t.val * 2048 + p.val) :
    (Gen.iblk2 V c 0 t : Vec Ideal S2048x5 .f32) (ix2 p k) = (V c main_v14 : S100352x5.Idx → EReal) (ix2 r k) := by
  obtain ⟨e0, e1, -⟩ := blocks_at2 t
  show V c main_v14 (((cfg2.win 0).blk t).view.emb (ix2 p k)) = V c main_v14 (ix2 r k)
  refine congrArg _ ?_
  funext a; apply Fin.ext
  match a with
  | ⟨0, _⟩ => show win2_0.index t (0 : Fin 2) * 2048 + 1 * p.val = r.val; omega
  | ⟨1, _⟩ => show win2_0.index t (1 : Fin 2) * 5 + 1 * k.val = k.val; omega

/-- The second input's block at point t holds rows 2048 t … of its array. -/
theorem read2_1 (c : Dev nD) (t : Fin cfg2.N) (p : Fin 2048) (k : Fin 128) (r : Fin 100352) (hr : r.val = t.val * 2048 + p.val) :
    (Gen.iblk2 V c 1 t : Vec Ideal S2048x128 .f32) (ix2 p k) = (V c main_v15 : S100352x128.Idx → EReal) (ix2 r k) := by
  obtain ⟨-, -, e0, e1, -⟩ := blocks_at2 t
  show V c main_v15 (((cfg2.win 1).blk t).view.emb (ix2 p k)) = V c main_v15 (ix2 r k)
  refine congrArg _ ?_
  funext a; apply Fin.ext
  match a with
  | ⟨0, _⟩ => show win2_1.index t (0 : Fin 2) * 2048 + 1 * p.val = r.val; omega
  | ⟨1, _⟩ => show win2_1.index t (1 : Fin 2) * 128 + 1 * k.val = k.val; omega

/-- The weight and bias windows hold their whole arrays at every point. -/
theorem whole2_2 (c : Dev nD) (t : Fin cfg2.N) :
    (Gen.iblk2 V c 2 t : Vec Ideal S133x128 .f32) = (V c main_arg9 : S133x128.Idx → EReal) := by
  obtain ⟨-, -, -, -, e0, e1, -⟩ := blocks_at2 t
  funext y
  show V c main_arg9 (((cfg2.win 2).blk t).view.emb y) = V c main_arg9 y
  refine congrArg _ ?_
  funext a; apply Fin.ext
  match a with
  | ⟨0, _⟩ => show win2_2.index t (0 : Fin 2) * 133 + 1 * (y 0).val = (y 0).val; omega
  | ⟨1, _⟩ => show win2_2.index t (1 : Fin 2) * 128 + 1 * (y 1).val = (y 1).val; omega

theorem whole2_3 (c : Dev nD) (t : Fin cfg2.N) :
    (Gen.iblk2 V c 3 t : Vec Ideal S128 .f32) = (V c main_arg10 : S128.Idx → EReal) := by
  obtain ⟨-, -, -, -, -, -, e0, -⟩ := blocks_at2 t
  funext y
  show V c main_arg10 (((cfg2.win 3).blk t).view.emb y) = V c main_arg10 y
  refine congrArg _ ?_
  funext a; apply Fin.ext
  match a with
  | ⟨0, _⟩ => show win2_3.index t (0 : Fin 1) * 128 + 1 * (y 0).val = (y 0).val; omega

theorem whole2_4 (c : Dev nD) (t : Fin cfg2.N) :
    (Gen.iblk2 V c 4 t : Vec Ideal S128x128 .f32) = (V c main_arg11 : S128x128.Idx → EReal) := by
  obtain ⟨-, -, -, -, -, -, -, e0, e1, -⟩ := blocks_at2 t
  funext y
  show V c main_arg11 (((cfg2.win 4).blk t).view.emb y) = V c main_arg11 y
  refine congrArg _ ?_
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

theorem whole2_5 (c : Dev nD) (t : Fin cfg2.N) :
    (Gen.iblk2 V c 5 t : Vec Ideal S128 .f32) = (V c main_arg12 : S128.Idx → EReal) := by
  obtain ⟨-, -, -, -, -, -, -, -, -, e0, -⟩ := blocks_at2 t
  funext y
  show V c main_arg12 (((cfg2.win 5).blk t).view.emb y) = V c main_arg12 y
  refine congrArg _ ?_
  funext a; apply Fin.ext
  match a with
  | ⟨0, _⟩ => show win2_5.index t (0 : Fin 1) * 128 + 1 * (y 0).val = (y 0).val; omega

/-- What point t writes back is block t of the whole-array function. -/
theorem flushed2_eq (c : Dev nD) (t : Fin cfg2.N) :
    (Gen.dat2 V c).flushed 6 t = ((cfg2.win 6).blk t).view.read (Elt Ideal) (G2 V c) := by
  show (cfg2.win 6).cut (grid2.coords t) ((Gen.dat2 V c).after 6 t) = _
  rw [Gen.after2_6]
  refine (congrArg _ (out2 _ _ _ _ _ _)).trans ?_
  rw [whole2_2 V c t, whole2_3 V c t, whole2_4 V c t, whole2_5 V c t]
  obtain ⟨-, -, -, -, -, -, -, -, -, -, e0, e1⟩ := blocks_at2 t
  have hN : cfg2.N = 49 := Gen.N_2
  have ht : t.val < 49 := hN ▸ t.isLt
  funext j
  have hp : (j 0).val < 2048 := (j 0).isLt
  have hr : t.val * 2048 + (j 0).val < 100352 := by omega
  have he : ((cfg2.win 6).blk t).view.emb j = ix2 (⟨t.val * 2048 + (j 0).val, hr⟩ : Fin 100352) (j 1) := by
    funext a; apply Fin.ext
    match a with
    | ⟨0, _⟩ => show win2_6.index t (0 : Fin 2) * 2048 + 1 * (j 0).val = t.val * 2048 + (j 0).val; omega
    | ⟨1, _⟩ => show win2_6.index t (1 : Fin 2) * 128 + 1 * (j 1).val = (j 1).val; omega
  show LibLayer.linRelu (LibLayer.linRelu (concatenate S2048x133 1 [⟨S2048x5, Gen.iblk2 V c 0 t⟩, ⟨S2048x128, Gen.iblk2 V c 1 t⟩] _) (V c main_arg9) (V c main_arg10)) (V c main_arg11) (V c main_arg12) j
      = G2 V c (((cfg2.win 6).blk t).view.emb j)
  rw [he]
  refine (congrArg _ (eq_ix2 (n0 := 2048) (n1 := 128) j)).trans ?_
  exact rows2 (V c main_v14) (V c main_v15) (Gen.iblk2 V c 0 t) (Gen.iblk2 V c 1 t) (V c main_arg9) (V c main_arg10) (V c main_arg11) (V c main_arg12) _ hcat2 (j 0) ⟨t.val * 2048 + (j 0).val, hr⟩
    (fun k => read2_0 V c t (j 0) k _ rfl) (fun k => read2_1 V c t (j 0) k _ rfl) (j 1)

/-- An index of the array is in point t's block iff each coordinate is in the block's range on its axis. -/
theorem mem_blk2 (t : Fin cfg2.N) (i : S100352x128.Idx) :
    i ∈ ((cfg2.win 6).blk t).view.set ↔ ∀ a : Fin 2, win2_6.index t a * S2048x128.size a ≤ (i a).val ∧ (i a).val < win2_6.index t a * S2048x128.size a + S2048x128.size a := by
  show i ∈ ((View.whole main_v16).slice (win2_6.rect t)).set ↔ _
  rw [View.set_slice_whole, Rect.mem_set_unit]
  exact Iff.rfl

/-- Every row r of the array is in the block of point r / 2048. -/
theorem cover2 (i : S100352x128.Idx) :
    ∃ t : Fin cfg2.N, (cfg2.win 6).flush t = true ∧ i ∈ ((cfg2.win 6).blk t).view.set := by
  have hN : cfg2.N = 49 := Gen.N_2
  have hi0 : (i 0).val < 100352 := (i 0).isLt
  have hi1 : (i 1).val < 128 := (i 1).isLt
  have hq : (i 0).val / 2048 < cfg2.N := by rw [hN]; omega
  refine ⟨⟨(i 0).val / 2048, hq⟩, Gen.flush2_6 _, ?_⟩
  rw [mem_blk2]
  obtain ⟨-, -, -, -, -, -, -, -, -, -, e0, e1⟩ := blocks_at2 ⟨(i 0).val / 2048, hq⟩
  have e0' : win2_6.index ⟨(i 0).val / 2048, hq⟩ (0 : Fin 2) = (i 0).val / 2048 := e0
  intro a
  match a with
  | ⟨0, _⟩ => show win2_6.index ⟨(i 0).val / 2048, hq⟩ (0 : Fin 2) * 2048 ≤ (i 0).val ∧ (i 0).val < win2_6.index ⟨(i 0).val / 2048, hq⟩ (0 : Fin 2) * 2048 + 2048; omega
  | ⟨1, _⟩ => show win2_6.index ⟨(i 0).val / 2048, hq⟩ (1 : Fin 2) * 128 ≤ (i 1).val ∧ (i 1).val < win2_6.index ⟨(i 0).val / 2048, hq⟩ (1 : Fin 2) * 128 + 128; omega

/-- Region 2's result array after the region: the two arrays joined along the columns, through the two rectified layers. -/
theorem final2 (c : Dev nD) : (Gen.dat2 V c).arrAt 6 cfg2.N
    = LibLayer.linRelu (LibLayer.linRelu
        (concatenate (⟨2, ![100352, 133]⟩ : Shape) 1 [⟨S100352x5, V c main_v14⟩, ⟨S100352x128, V c main_v15⟩] hcat2)
        (V c main_arg9) (V c main_arg10)) (V c main_arg11) (V c main_arg12) :=
  (Gen.dat2 V c).arrAt_eq_of_cover 6 (G2 V c) (fun t _ => flushed2_eq V c t) cover2

/-! ## Region 3: rows of 256 features through a rectified layer and an affine layer of one output column -/

theorem hcat3 : Shape.Concatenates [S65536x128, S65536x128] ⟨2, ![65536, 256]⟩ 1 := by decide

/-- The whole-array function of region 3: the two arrays joined along the columns, through the rectified layer and
    the affine layer. -/
abbrev G3 (c : Dev nD) : S65536x1.Idx → EReal :=
  LibLayer.lin (LibLayer.linRelu
    (concatenate (⟨2, ![65536, 256]⟩ : Shape) 1 [⟨S65536x128, V c main_v0⟩, ⟨S65536x128, V c main_v24⟩] hcat3)
    (V c main_arg13) (V c main_arg14)) (V c main_arg15) (V c main_arg16)

/-- Row p of the two layers of a block is row r of the two layers of the arrays when row p of each piece of the
    block is row r of the corresponding array. -/
theorem rows3 (A0 : FVec Ideal ⟨2, ![65536, 128]⟩ .f32) (A1 : FVec Ideal ⟨2, ![65536, 128]⟩ .f32)
    (x0 : FVec Ideal ⟨2, ![4096, 128]⟩ .f32) (x1 : FVec Ideal ⟨2, ![4096, 128]⟩ .f32)
    (w1 : FVec Ideal ⟨2, ![256, 128]⟩ .f32) (b1 : FVec Ideal ⟨1, ![128]⟩ .f32)
    (w2 : FVec Ideal ⟨2, ![128, 1]⟩ .f32) (b2 : FVec Ideal ⟨1, ![1]⟩ .f32)
    (h : Shape.Concatenates [(⟨2, ![4096, 128]⟩ : Shape), ⟨2, ![4096, 128]⟩] ⟨2, ![4096, 256]⟩ 1)
    (h' : Shape.Concatenates [(⟨2, ![65536, 128]⟩ : Shape), ⟨2, ![65536, 128]⟩] ⟨2, ![65536, 256]⟩ 1)
    (p : Fin 4096) (r : Fin 65536)
    (h0 : ∀ k : Fin 128, x0 (ix2 p k) = A0 (ix2 r k)) (h1 : ∀ k : Fin 128, x1 (ix2 p k) = A1 (ix2 r k)) (q : Fin 1) :
    LibLayer.lin (LibLayer.linRelu (concatenate (⟨2, ![4096, 256]⟩ : Shape) 1 [⟨⟨2, ![4096, 128]⟩, x0⟩, ⟨⟨2, ![4096, 128]⟩, x1⟩] h) w1 b1) w2 b2 (ix2 p q)
      = LibLayer.lin (LibLayer.linRelu (concatenate (⟨2, ![65536, 256]⟩ : Shape) 1 [⟨⟨2, ![65536, 128]⟩, A0⟩, ⟨⟨2, ![65536, 128]⟩, A1⟩] h') w1 b1) w2 b2 (ix2 r q) :=
  LibLayer.lin_row_congr _ _ w2 b2 p r (fun k => LibLayer.linRelu_row_congr _ _ w1 b1 p r
    (fun c => LibConcatCols.concat_cols_row_congr rfl x0 x1 A0 A1 h h' p r h0 h1 c) k) q

/-- The printed index maps over the grid: the two row-tiled inputs and the output sit at block (t, 0), the weights
    and biases at block 0. -/
theorem blocks_at3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- The first input's block at point t holds rows 4096 t … of its array. -/
theorem read3_0 (c : Dev nD) (t : Fin cfg3.N) (p : Fin 4096) (k : Fin 128) (r : Fin 65536) (hr : r.val = t.val * 4096 + p.val) :
    (Gen.iblk3 V c 0 t : Vec Ideal S4096x128 .f32) (ix2 p k) = (V c main_v0 : S65536x128.Idx → EReal) (ix2 r k) := by
  obtain ⟨e0, e1, -⟩ := blocks_at3 t
  show V c main_v0 (((cfg3.win 0).blk t).view.emb (ix2 p k)) = V c main_v0 (ix2 r k)
  refine congrArg _ ?_
  funext a; apply Fin.ext
  match a with
  | ⟨0, _⟩ => show win3_0.index t (0 : Fin 2) * 4096 + 1 * p.val = r.val; omega
  | ⟨1, _⟩ => show win3_0.index t (1 : Fin 2) * 128 + 1 * k.val = k.val; omega

/-- The second input's block at point t holds rows 4096 t … of its array. -/
theorem read3_1 (c : Dev nD) (t : Fin cfg3.N) (p : Fin 4096) (k : Fin 128) (r : Fin 65536) (hr : r.val = t.val * 4096 + p.val) :
    (Gen.iblk3 V c 1 t : Vec Ideal S4096x128 .f32) (ix2 p k) = (V c main_v24 : S65536x128.Idx → EReal) (ix2 r k) := by
  obtain ⟨-, -, e0, e1, -⟩ := blocks_at3 t
  show V c main_v24 (((cfg3.win 1).blk t).view.emb (ix2 p k)) = V c main_v24 (ix2 r k)
  refine congrArg _ ?_
  funext a; apply Fin.ext
  match a with
  | ⟨0, _⟩ => show win3_1.index t (0 : Fin 2) * 4096 + 1 * p.val = r.val; omega
  | ⟨1, _⟩ => show win3_1.index t (1 : Fin 2) * 128 + 1 * k.val = k.val; omega

/-- The weight and bias windows hold their whole arrays at every point. -/
theorem whole3_2 (c : Dev nD) (t : Fin cfg3.N) :
    (Gen.iblk3 V c 2 t : Vec Ideal S256x128 .f32) = (V c main_arg13 : S256x128.Idx → EReal) := by
  obtain ⟨-, -, -, -, e0, e1, -⟩ := blocks_at3 t
  funext y
  show V c main_arg13 (((cfg3.win 2).blk t).view.emb y) = V c main_arg13 y
  refine congrArg _ ?_
  funext a; apply Fin.ext
  match a with
  | ⟨0, _⟩ => show win3_2.index t (0 : Fin 2) * 256 + 1 * (y 0).val = (y 0).val; omega
  | ⟨1, _⟩ => show win3_2.index t (1 : Fin 2) * 128 + 1 * (y 1).val = (y 1).val; omega

theorem whole3_3 (c : Dev nD) (t : Fin cfg3.N) :
    (Gen.iblk3 V c 3 t : Vec Ideal S128 .f32) = (V c main_arg14 : S128.Idx → EReal) := by
  obtain ⟨-, -, -, -, -, -, e0, -⟩ := blocks_at3 t
  funext y
  show V c main_arg14 (((cfg3.win 3).blk t).view.emb y) = V c main_arg14 y
  refine congrArg _ ?_
  funext a; apply Fin.ext
  match a with
  | ⟨0, _⟩ => show win3_3.index t (0 : Fin 1) * 128 + 1 * (y 0).val = (y 0).val; omega

theorem whole3_4 (c : Dev nD) (t : Fin cfg3.N) :
    (Gen.iblk3 V c 4 t : Vec Ideal S128x1 .f32) = (V c main_arg15 : S128x1.Idx → EReal) := by
  obtain ⟨-, -, -, -, -, -, -, e0, e1, -⟩ := blocks_at3 t
  funext y
  show V c main_arg15 (((cfg3.win 4).blk t).view.emb y) = V c main_arg15 y
  refine congrArg _ ?_
  funext a; apply Fin.ext
  match a with
  | ⟨0, _⟩ => show win3_4.index t (0 : Fin 2) * 128 + 1 * (y 0).val = (y 0).val; omega
  | ⟨1, _⟩ => show win3_4.index t (1 : Fin 2) * 1 + 1 * (y 1).val = (y 1).val; omega

theorem whole3_5 (c : Dev nD) (t : Fin cfg3.N) :
    (Gen.iblk3 V c 5 t : Vec Ideal S1 .f32) = (V c main_arg16 : S1.Idx → EReal) := by
  obtain ⟨-, -, -, -, -, -, -, -, -, e0, -⟩ := blocks_at3 t
  funext y
  show V c main_arg16 (((cfg3.win 5).blk t).view.emb y) = V c main_arg16 y
  refine congrArg _ ?_
  funext a; apply Fin.ext
  match a with
  | ⟨0, _⟩ => show win3_5.index t (0 : Fin 1) * 1 + 1 * (y 0).val = (y 0).val; omega

/-- What point t writes back is block t of the whole-array function. -/
theorem flushed3_eq (c : Dev nD) (t : Fin cfg3.N) :
    (Gen.dat3 V c).flushed 6 t = ((cfg3.win 6).blk t).view.read (Elt Ideal) (G3 V c) := by
  show (cfg3.win 6).cut (grid3.coords t) ((Gen.dat3 V c).after 6 t) = _
  rw [Gen.after3_6]
  refine (congrArg _ (out3 _ _ _ _ _ _)).trans ?_
  rw [whole3_2 V c t, whole3_3 V c t, whole3_4 V c t, whole3_5 V c t]
  obtain ⟨-, -, -, -, -, -, -, -, -, -, e0, e1⟩ := blocks_at3 t
  have hN : cfg3.N = 16 := Gen.N_3
  have ht : t.val < 16 := hN ▸ t.isLt
  funext j
  have hp : (j 0).val < 4096 := (j 0).isLt
  have hr : t.val * 4096 + (j 0).val < 65536 := by omega
  have he : ((cfg3.win 6).blk t).view.emb j = ix2 (⟨t.val * 4096 + (j 0).val, hr⟩ : Fin 65536) (j 1) := by
    funext a; apply Fin.ext
    match a with
    | ⟨0, _⟩ => show win3_6.index t (0 : Fin 2) * 4096 + 1 * (j 0).val = t.val * 4096 + (j 0).val; omega
    | ⟨1, _⟩ => show win3_6.index t (1 : Fin 2) * 1 + 1 * (j 1).val = (j 1).val; omega
  show LibLayer.lin (LibLayer.linRelu (concatenate S4096x256 1 [⟨S4096x128, Gen.iblk3 V c 0 t⟩, ⟨S4096x128, Gen.iblk3 V c 1 t⟩] _) (V c main_arg13) (V c main_arg14)) (V c main_arg15) (V c main_arg16) j
      = G3 V c (((cfg3.win 6).blk t).view.emb j)
  rw [he]
  refine (congrArg _ (eq_ix2 (n0 := 4096) (n1 := 1) j)).trans ?_
  exact rows3 (V c main_v0) (V c main_v24) (Gen.iblk3 V c 0 t) (Gen.iblk3 V c 1 t) (V c main_arg13) (V c main_arg14) (V c main_arg15) (V c main_arg16) _ hcat3 (j 0) ⟨t.val * 4096 + (j 0).val, hr⟩
    (fun k => read3_0 V c t (j 0) k _ rfl) (fun k => read3_1 V c t (j 0) k _ rfl) (j 1)

/-- An index of the array is in point t's block iff each coordinate is in the block's range on its axis. -/
theorem mem_blk3 (t : Fin cfg3.N) (i : S65536x1.Idx) :
    i ∈ ((cfg3.win 6).blk t).view.set ↔ ∀ a : Fin 2, win3_6.index t a * S4096x1.size a ≤ (i a).val ∧ (i a).val < win3_6.index t a * S4096x1.size a + S4096x1.size a := by
  show i ∈ ((View.whole main_v25).slice (win3_6.rect t)).set ↔ _
  rw [View.set_slice_whole, Rect.mem_set_unit]
  exact Iff.rfl

/-- Every row r of the array is in the block of point r / 4096. -/
theorem cover3 (i : S65536x1.Idx) :
    ∃ t : Fin cfg3.N, (cfg3.win 6).flush t = true ∧ i ∈ ((cfg3.win 6).blk t).view.set := by
  have hN : cfg3.N = 16 := Gen.N_3
  have hi0 : (i 0).val < 65536 := (i 0).isLt
  have hi1 : (i 1).val < 1 := (i 1).isLt
  have hq : (i 0).val / 4096 < cfg3.N := by rw [hN]; omega
  refine ⟨⟨(i 0).val / 4096, hq⟩, Gen.flush3_6 _, ?_⟩
  rw [mem_blk3]
  obtain ⟨-, -, -, -, -, -, -, -, -, -, e0, e1⟩ := blocks_at3 ⟨(i 0).val / 4096, hq⟩
  have e0' : win3_6.index ⟨(i 0).val / 4096, hq⟩ (0 : Fin 2) = (i 0).val / 4096 := e0
  intro a
  match a with
  | ⟨0, _⟩ => show win3_6.index ⟨(i 0).val / 4096, hq⟩ (0 : Fin 2) * 4096 ≤ (i 0).val ∧ (i 0).val < win3_6.index ⟨(i 0).val / 4096, hq⟩ (0 : Fin 2) * 4096 + 4096; omega
  | ⟨1, _⟩ => show win3_6.index ⟨(i 0).val / 4096, hq⟩ (1 : Fin 2) * 1 ≤ (i 1).val ∧ (i 1).val < win3_6.index ⟨(i 0).val / 4096, hq⟩ (1 : Fin 2) * 1 + 1; omega

/-- Region 3's result array after the region: the two arrays joined along the columns, through the rectified layer
    and the affine layer. -/
theorem final3 (c : Dev nD) : (Gen.dat3 V c).arrAt 6 cfg3.N
    = LibLayer.lin (LibLayer.linRelu
        (concatenate (⟨2, ![65536, 256]⟩ : Shape) 1 [⟨S65536x128, V c main_v0⟩, ⟨S65536x128, V c main_v24⟩] hcat3)
        (V c main_arg13) (V c main_arg14)) (V c main_arg15) (V c main_arg16) :=
  (Gen.dat3 V c).arrAt_eq_of_cover 6 (G3 V c) (fun t _ => flushed3_eq V c t) cover3

end Cert.KernelIdeal.Regions23

end
-- ==== Proof.LibBand.lean ====
/-
  Layout steps read at an index, for any element type and extents: a band of rows cut out of a matrix; a
  one-column matrix read as a vector; a one-column matrix read as a one-row matrix. In each case the entry read
  is found by comparing row-major positions.
-/
import Idealize.ShloMosaic.Lib.Pipeline.Value
import Idealize.ShloMosaic.Lib.ValueIdx
import Idealize.ShloMosaic.Lib.ValueLayout

namespace Cert.LibBand

open Idealize.ShloMosaic Idealize.ShloMosaic.ValueIdx

variable {α : Type}

/-- Rows off, …, off + a − 1 of a t × n matrix, all n columns: entry (p, q) of the band is entry (off + p, q) of
    the matrix. -/
theorem rows_band_apply {t a n : ℕ} (off : ℕ) (x : (⟨2, ![t, n]⟩ : Shape).Idx → α)
    (h : (⟨2, ![t, n]⟩ : Shape).Slices ![off, 0] ⟨2, ![a, n]⟩) (p : Fin a) (q : Fin n) (P : Fin t)
    (hP : P.val = off + p.val) :
    extractStridedSlice ⟨2, ![a, n]⟩ ![off, 0] x h (ix2 p q) = x (ix2 P q) :=
  extractStridedSlice_apply _ x h _ _ fun ax => by
    match ax with
    | ⟨0, _⟩ => exact hP
    | ⟨1, _⟩ => show q.val = 0 + q.val; omega

/-- An a × 1 column read as a length-a vector: entry i is the column's entry of row i. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An a × 1 column read as a 1 × a row: entry (0, k) of the row is entry (k, 0) of the column. -/
theorem shapeCast_a1_1a_apply {a : ℕ} (x : (⟨2, ![a, 1]⟩ : Shape).Idx → α)
    (h : (⟨2, ![a, 1]⟩ : Shape).ShapeCasts ⟨2, ![1, a]⟩) (u : Fin 1) (k : Fin a) :
    shapeCast ⟨2, ![1, a]⟩ x h (ix2 u k) = x (ix2 k (0 : Fin 1)) :=
  shapeCast_apply x h _ _ (by
    have hu : u.val = 0 := by omega
    rw [Shape.rowMajor_val_two, Shape.rowMajor_val_two]
    show k.val * 1 + 0 = u.val * a + k.val
    rw [hu]; omega)

end Cert.LibBand
-- ==== Proof.LibPadRows.lean ====
/-
  A matrix padded with rows BELOW it (no padding above, none on the columns, none between entries), read at one of
  the matrix's own rows: entry (P, q) of the padded array is entry (p, q) of the matrix when P and p are the same row
  number. For any element type and extents.

  With it, a statement about row-wise functions: a two-layer rectified network applied to the column-join of two
  matrices depends, row by row, on that row of the two matrices only; so the network of the two PADDED matrices, cut
  back to the first n rows, is the network of the matrices themselves.
-/
import Idealize.ShloMosaic.Lib.ValueIdx
import Idealize.ShloMosaic.Lib.Pipeline.Value
import Idealize.ShloMosaic.Lib.KernelVsHost
import proofs.«129727_j18588618457111_1_alg».proof.Proof.LibLayer
import proofs.«129727_j18588618457111_1_alg».proof.Proof.LibConcatCols
import proofs.«129727_j18588618457111_1_alg».proof.Proof.LibBand

noncomputable section

namespace Cert.LibPadRows

open Idealize.ShloMosaic Idealize.ShloMosaic.ValueIdx

/-- A matrix with e rows of padding below it, read at row P = p of the matrix. -/
theorem pad_rows_apply {α : Type} {n N k e : Nat} (x : (⟨2, ![n, k]⟩ : Shape).Idx → α) {u : Shape} (v : u.Idx → α)
    (h : (⟨2, ![n, k]⟩ : Shape).Pads ![0, 0] ![e, 0] ![0, 0] ⟨2, ![N, k]⟩) (hu : 0 < u.numel)
    (p : Fin n) (P : Fin N) (hP : P.val = p.val) (q : Fin k) :
    pad ⟨2, ![N, k]⟩ ![0, 0] ![e, 0] ![0, 0] x v h hu (ix2 P q) = x (ix2 p q) :=
  pad_apply_of_inside _ _ _ x v h hu (ix2 P q) (ix2 p q) fun a => by
    match a with
    | ⟨0, _⟩ => show P.val = 0 + p.val * (0 + 1); omega
    | ⟨1, _⟩ => show q.val = 0 + q.val * (0 + 1); omega

open Cert.LibLayer in
/-- Two rectified layers of [A | B], computed on the arrays padded with rows below and cut back to the first n rows,
    are the two layers of [A | B] itself. -/
theorem sliced_layers_of_padded {n N ka kb kt d₁ d₂ e : Nat} (hab : ka + kb = kt) (hnN : n ≤ N)
    (A : FVec Ideal ⟨2, ![n, ka]⟩ .f32) (B : FVec Ideal ⟨2, ![n, kb]⟩ .f32) {u : Shape} (v : u.Idx → EReal)
    (hA : (⟨2, ![n, ka]⟩ : Shape).Pads ![0, 0] ![e, 0] ![0, 0] ⟨2, ![N, ka]⟩)
    (hB : (⟨2, ![n, kb]⟩ : Shape).Pads ![0, 0] ![e, 0] ![0, 0] ⟨2, ![N, kb]⟩) (hu : 0 < u.numel)
    (hc : Shape.Concatenates [(⟨2, ![N, ka]⟩ : Shape), ⟨2, ![N, kb]⟩] ⟨2, ![N, kt]⟩ 1)
    (hc' : Shape.Concatenates [(⟨2, ![n, ka]⟩ : Shape), ⟨2, ![n, kb]⟩] ⟨2, ![n, kt]⟩ 1)
    (w₁ : FVec Ideal ⟨2, ![kt, d₁]⟩ .f32) (b₁ : FVec Ideal ⟨1, ![d₁]⟩ .f32)
    (w₂ : FVec Ideal ⟨2, ![d₁, d₂]⟩ .f32) (b₂ : FVec Ideal ⟨1, ![d₂]⟩ .f32)
    (hs : (⟨2, ![N, d₂]⟩ : Shape).Slices ![0, 0] ⟨2, ![n, d₂]⟩) :
    extractStridedSlice ⟨2, ![n, d₂]⟩ ![0, 0]
        (linRelu (linRelu (concatenate (⟨2, ![N, kt]⟩ : Shape) 1
          [⟨⟨2, ![N, ka]⟩, pad ⟨2, ![N, ka]⟩ ![0, 0] ![e, 0] ![0, 0] A v hA hu⟩,
           ⟨⟨2, ![N, kb]⟩, pad ⟨2, ![N, kb]⟩ ![0, 0] ![e, 0] ![0, 0] B v hB hu⟩] hc) w₁ b₁) w₂ b₂) hs
      = linRelu (linRelu (concatenate (⟨2, ![n, kt]⟩ : Shape) 1 [⟨⟨2, ![n, ka]⟩, A⟩, ⟨⟨2, ![n, kb]⟩, B⟩] hc') w₁ b₁) w₂ b₂ := by
  funext i
  obtain ⟨p, q, rfl⟩ : ∃ (p : Fin n) (q : Fin d₂), i = ix2 p q := ⟨i 0, i 1, eq_ix2 i⟩
  have hp := p.isLt
  rw [LibBand.rows_band_apply 0 _ hs p q ⟨p.val, by omega⟩ (by show p.val = 0 + p.val; omega)]
  refine linRelu_row_congr _ _ w₂ b₂ _ p (fun k => ?_) q
  refine linRelu_row_congr _ _ w₁ b₁ _ p (fun k' => ?_) k
  exact LibConcatCols.concat_cols_row_congr hab _ _ A B hc hc' _ p
    (fun c => pad_rows_apply A v hA hu p _ rfl c) (fun c => pad_rows_apply B v hB hu p _ rfl c) k'

end Cert.LibPadRows
-- ==== Proof.Bridge.lean ====
/-
  The idealized kernel returns the reference's function of the seventeen arguments.

  Read back through the program's segments, the kernel's result is the reshape of region 3's output array; region 3
  applies one rectified and one affine layer to [target encoding | gathered card encodings]; the target encoding is
  region 0's two rectified layers of the target rows; the gathered rows come, by the wrapped index column, from the
  first 100000 rows of region 2's output array, which is two rectified layers of [features | means] computed on the
  arrays padded below with 352 rows; the means are the scattered sums of region 1's two rectified layers of the
  history rows, divided by the floored counts. A layer's row depends only on that row of its input, so the layers of
  the padded arrays, cut back to the first 100000 rows, are the layers of the arrays themselves — and what remains is,
  operation for operation, the reference's term.
-/
import proofs.«129727_j18588618457111_1_alg».proof.Proof.Gen.KernelIdeal.Frame
import proofs.«129727_j18588618457111_1_alg».proof.Proof.Walk
import proofs.«129727_j18588618457111_1_alg».proof.Proof.Regions01
import proofs.«129727_j18588618457111_1_alg».proof.Proof.Regions23
import proofs.«129727_j18588618457111_1_alg».proof.Proof.RefNet
import proofs.«129727_j18588618457111_1_alg».proof.Proof.LibPadRows

set_option maxRecDepth 16384

noncomputable section

namespace Cert.KernelIdeal.Bridge

open Cert.KernelIdeal Cert.KernelIdeal.Gen
open Idealize.ShloMosaic Idealize.ShloMosaic.TcCoe Idealize.SL.Sem
open Cert.LibLayer

variable (m : (ℓ : Loc nD τ sig) → Buf (Elt Ideal) ℓ) (ρ : Dev nD → PrngReg)

/-- The kernel's result buffer holds the reference's function of the arguments. -/
theorem kernel_value (c : Dev nD) :
    W10 m ρ c (Proc.devRef .tc main_v26) =
      Cert.ReferenceIdeal.RefNet.refNet (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16)) := by
  -- region 1's output array: the encoder of the history rows
  have e1 := Regions01.final1 (V1 m ρ) c
  rw [Walk.V1_arg1 m ρ c, Walk.V1_arg5 m ρ c, Walk.V1_arg6 m ρ c, Walk.V1_arg7 m ρ c, Walk.V1_arg8 m ρ c] at e1
  -- region 2's second input: the padded means
  have e15 := Walk.V6_v15 m ρ c
  rw [e1] at e15
  -- region 2's output array: two layers of the joined padded arrays
  have e2 := Regions23.final2 (V6 m ρ) c
  rw [Walk.V6_v14 m ρ c, e15, Walk.V6_arg9 m ρ c, Walk.V6_arg10 m ρ c, Walk.V6_arg11 m ρ c, Walk.V6_arg12 m ρ c] at e2
  -- region 3's second input: the gathered rows; the padded rows are cut away
  have e24 := Walk.V8_v24 m ρ c
  rw [e2, LibPadRows.sliced_layers_of_padded (n := 100000) (N := 100352) (ka := 5) (kb := 128) (kt := 133) (d₁ := 128)
    (d₂ := 128) (e := 352) rfl (by decide) _ _ _ _ _ _ _
    Cert.ReferenceIdeal.Facts₀.concatenates_S100000x5_S100000x128_S100000x133_d1] at e24
  -- region 3's first input: region 0's output array, the encoder of the target rows
  have e0 := Walk.V8_v0 m ρ c
  rw [Regions01.final0 (V0 m ρ) c] at e0
  -- region 3's output array, and the result
  have e3 := Regions23.final3 (V8 m ρ) c
  rw [e0, e24, Walk.V8_arg13 m ρ c, Walk.V8_arg14 m ρ c, Walk.V8_arg15 m ρ c, Walk.V8_arg16 m ρ c] at e3
  refine (Walk.W10_v26 m ρ c).trans ?_
  rw [e3]
  rfl

end Cert.KernelIdeal.Bridge

end
-- ==== Proof.lean ====
/-
  The certificate: a two-layer-perceptron graph model computed by four kernel regions with host operations between
  them, against the same model computed by host operations only. Both are one function of the seventeen arguments
  at the ideal values (a float an extended real, every operation exact, a change of format the identity).

  The model. Encode every target row and every history row by two rectified dense layers with one set of weights.
  Per card, take the mean of the encoded history rows that name it: the sum of those rows divided by the larger of
  their number and one. Join each card's five dense features with its mean along the columns and encode the joined
  row by two more rectified layers. For each target row, fetch the encoded row of the card its index names (a
  negative index counted from the end), join it to the encoded target row along the columns, and apply one
  rectified layer and one affine layer with a single output column; the result is that column as a vector.

  Why the two programs agree.
  * A dense layer is one function in both spellings. The kernel narrows both operands to the short format (the
    identity at the ideal values), multiplies on the matrix unit into a zero accumulator, adds the bias laid out as
    a row and spread over the rows, and takes the maximum with a splat zero; the host takes the general product,
    adds the bias broadcast through a one-row matrix, and takes the maximum with a broadcast zero. Each is, entry
    by entry, the sum over k of x (p, k) · w (k, q), plus b (q), and its larger with zero.
  * Entry (p, q) of a layer reads row p of its input only. A region walks its input in row tiles and writes the same
    rows of its output, so the tiles' results, put side by side, are the layer of the whole array; a layer applied
    to two blocks joined along the columns inside a tile is the layer of the whole arrays joined along the columns.
  * The card arrays are padded with zero rows up to a whole number of tiles before the third region and the added
    rows are cut away after it: rows below the original count are rows of the unpadded arrays' layers, by the same
    row-locality, and the rows beyond it are never read.
  * The scatter-add of the encoded rows, the count of rows per card, the quotient, the index wrap, the gather of
    rows and the final reshape are the same operations in both programs, applied to arrays already shown equal.

  So the kernel's result buffer and the reference's hold the same array, `refNet` of the arguments, whenever the two
  launches agree on the arguments; each program terminates without fault and leaves its arguments as launched; and
  the idealization rewrote no operation of the kernel.
-/
import proofs.«129727_j18588618457111_1_alg».proof.Defs
import proofs.«129727_j18588618457111_1_alg».proof.Proof.Gen.Kernel
import proofs.«129727_j18588618457111_1_alg».proof.Proof.Gen.Kernel.Skeleton
import proofs.«129727_j18588618457111_1_alg».proof.Proof.Gen.Kernel.Launch
import proofs.«129727_j18588618457111_1_alg».proof.Proof.Gen.Kernel.Points
import proofs.«129727_j18588618457111_1_alg».proof.Proof.Gen.Kernel.Frame
import proofs.«129727_j18588618457111_1_alg».proof.Proof.Gen.KernelIdeal
import proofs.«129727_j18588618457111_1_alg».proof.Proof.Gen.KernelIdeal.Skeleton
import proofs.«129727_j18588618457111_1_alg».proof.Proof.Gen.KernelIdeal.Launch
import proofs.«129727_j18588618457111_1_alg».proof.Proof.Gen.KernelIdeal.Points
import proofs.«129727_j18588618457111_1_alg».proof.Proof.Gen.KernelIdeal.Frame
import proofs.«129727_j18588618457111_1_alg».proof.Proof.Gen.ReferenceIdeal
import proofs.«129727_j18588618457111_1_alg».proof.Proof.Gen.Pre_finite_inputs
import proofs.«129727_j18588618457111_1_alg».proof.Proof.Gen.ReferenceIdeal.Run
import proofs.«129727_j18588618457111_1_alg».proof.Proof.Assemble
import proofs.«129727_j18588618457111_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, Assemble.preserves,
    Assemble.algebraic_of Cert.KernelIdeal.Bridge.kernel_value⟩

end Cert.Proof

end
